-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x400000 : Shape := ⟨2, ![2, 400000]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S50000x256 .f32) (main_arg1 : IVec S2x400000 32) (main_arg2 : FVec F S256x256 .f32) (main_arg3 : FVec F S256 .f32) (main_arg4 : FVec F S256x256 .f32) (main_arg5 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_v13 main_v16
-- ==== Kernel.lean ====
abbrev S50000x256 : Shape := ⟨2, ![50000, 256]⟩
abbrev S2x400000 : Shape := ⟨2, ![2, 400000]⟩
abbrev S256x256 : Shape := ⟨2, ![256, 256]⟩
abbrev S256 : Shape := ⟨1, ![256]⟩
abbrev S1x400000 : Shape := ⟨2, ![1, 400000]⟩
abbrev S400000 : Shape := ⟨1, ![400000]⟩
abbrev S50000 : Shape := ⟨1, ![50000]⟩
abbrev S450000 : Shape := ⟨1, ![450000]⟩
abbrev S_ : Shape := ⟨0, ![]⟩
abbrev S450000x1 : Shape := ⟨2, ![450000, 1]⟩
abbrev S50000x1 : Shape := ⟨2, ![50000, 1]⟩
abbrev S5000x256 : Shape := ⟨2, ![5000, 256]⟩
abbrev S5000x1 : Shape := ⟨2, ![5000, 1]⟩
abbrev S450000x256 : Shape := ⟨2, ![450000, 256]⟩
abbrev S1x256 : Shape := ⟨2, ![1, 256]⟩

abbrev nBuf : Space → Nat
  | .hbm => 65
  | .vmem => 15
  | .smem => 0
  | _ => 0

abbrev bufTy : (tb : Table) → Fin (tcTables nBuf tb) → BufTy
  | .hbm, ⟨0, _⟩ => ⟨S50000x256, .f32⟩
  | .hbm, ⟨1, _⟩ => ⟨S2x400000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S1x400000, .i32⟩
  | .hbm, ⟨7, _⟩ => ⟨S400000, .i32⟩
  | .hbm, ⟨8, _⟩ => ⟨S1x400000, .i32⟩
  | .hbm, ⟨9, _⟩ => ⟨S400000, .i32⟩
  | .hbm, ⟨10, _⟩ => ⟨S50000, .i32⟩
  | .hbm, ⟨11, _⟩ => ⟨S450000, .i32⟩
  | .hbm, ⟨12, _⟩ => ⟨S450000, .i32⟩
  | .hbm, ⟨13, _⟩ => ⟨S_, .f32⟩
  | .hbm, ⟨14, _⟩ => ⟨S450000, .f32⟩
  | .hbm, ⟨15, _⟩ => ⟨S_, .f32⟩
  | .hbm, ⟨16, _⟩ => ⟨S50000, .f32⟩
  | .hbm, ⟨17, _⟩ => ⟨S450000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x256, .f32⟩
  | .hbm, ⟨29, _⟩ => ⟨S_, .i32⟩
  | .hbm, ⟨30, _⟩ => ⟨S450000, .i32⟩
  | .hbm, ⟨31, _⟩ => ⟨S450000, .i1⟩
  | .hbm, ⟨32, _⟩ => ⟨S_, .i32⟩
  | .hbm, ⟨33, _⟩ => ⟨S450000, .i32⟩
  | .hbm, ⟨34, _⟩ => ⟨S450000, .i32⟩
  | .hbm, ⟨35, _⟩ => ⟨S450000, .i32⟩
  | .hbm, ⟨36, _⟩ => ⟨S450000x1, .i32⟩
  | .hbm, ⟨37, _⟩ => ⟨S450000x256, .f32⟩
  | .hbm, ⟨38, _⟩ => ⟨S_, .f32⟩
  | .hbm, ⟨39, _⟩ => ⟨S50000x256, .f32⟩
  | .hbm, ⟨40, _⟩ => ⟨S450000x1, .i32⟩
  | .hbm, ⟨41, _⟩ => ⟨S50000x256, .f32⟩
  | .hbm, ⟨42, _⟩ => ⟨S1x256, .f32⟩
  | .hbm, ⟨43, _⟩ => ⟨S50000x256, .f32⟩
  | .hbm, ⟨44, _⟩ => ⟨S_, .i32⟩
  | .hbm, ⟨45, _⟩ => ⟨S450000, .i32⟩
  | .hbm, ⟨46, _⟩ => ⟨S450000, .i1⟩
  | .hbm, ⟨47, _⟩ => ⟨S_, .i32⟩
  | .hbm, ⟨48, _⟩ => ⟨S450000, .i32⟩
  | .hbm, ⟨49, _⟩ => ⟨S450000, .i32⟩
  | .hbm, ⟨50, _⟩ => ⟨S450000, .i32⟩
  | .hbm, ⟨51, _⟩ => ⟨S450000x1, .i32⟩
  | .hbm, ⟨52, _⟩ => ⟨S450000x256, .f32⟩
  | .hbm, ⟨53, _⟩ => ⟨S_, .f32⟩
  | .hbm, ⟨54, _⟩ => ⟨S50000x256, .f32⟩
  | .hbm, ⟨55, _⟩ => ⟨S450000x1, .i32⟩
  | .hbm, ⟨56, _⟩ => ⟨S50000x256, .f32⟩
  | .hbm, ⟨57, _⟩ => ⟨S50000x256, .f32⟩
  | .hbm, ⟨58, _⟩ => ⟨S50000x256, .f32⟩
  | .hbm, ⟨59, _⟩ => ⟨S1x256, .f32⟩
  | .hbm, ⟨60, _⟩ => ⟨S50000x256, .f32⟩
  | .hbm, ⟨61, _⟩ => ⟨S50000x256, .f32⟩
  | .hbm, ⟨62, _⟩ => ⟨S_, .f32⟩
  | .hbm, ⟨63, _⟩ => ⟨S50000x256, .f32⟩
  | .hbm, ⟨64, _⟩ => ⟨S50000x256, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x1, .f32⟩
  | .local _ .vmem, ⟨4, _⟩ => ⟨S5000x1, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S5000x256, .f32⟩
  | .local _ .vmem, ⟨9, _⟩ => ⟨S256x256, .f32⟩
  | .local _ .vmem, ⟨10, _⟩ => ⟨S5000x1, .f32⟩
  | .local _ .vmem, ⟨11, _⟩ => ⟨S5000x1, .f32⟩
  | .local _ .vmem, ⟨12, _⟩ => ⟨S1x256, .f32⟩
  | .local _ .vmem, ⟨13, _⟩ => ⟨S5000x256, .f32⟩
  | .local _ .vmem, ⟨14, _⟩ => ⟨S5000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_call1_cst : Ref sig .tc := ⟨.hbm, 62, rfl⟩
abbrev main_call1_v0 : Ref sig .tc := ⟨.hbm, 63, rfl⟩
abbrev main_v44 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  concatenates_S400000_S50000_S450000_d0 : Shape.Concatenates [S400000, S50000] S450000 0
  bcast_S_S450000 : S_.BroadcastsInDim S450000 (![] : Fin 0 → Fin S450000.rank)
  bcast_S_S50000 : S_.BroadcastsInDim S50000 (![] : Fin 0 → Fin S50000.rank)
  bcast_S450000_S450000x1_0 : S450000.BroadcastsInDim S450000x1 (![0] : Fin 1 → Fin S450000x1.rank)
  shapeCasts_S50000_S50000x1 : S50000.ShapeCasts S50000x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  bcast_S_S50000x256 : S_.BroadcastsInDim S50000x256 (![] : Fin 0 → Fin S50000x256.rank)
  shapeCasts_S256_S1x256 : S256.ShapeCasts S1x256
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  scatter_S50000_S450000x1_S450000_n_0_0_1_wf : ScatterDims.WF S50000 S450000x1 S450000 [] [0] [0] 1
  dot_S5000x256_S256x256_S5000x256_1_0_0_1_n_n_wf : DotDims.WF S5000x256 S256x256 S5000x256 [1] [0] [0] [1] [] []
  gather_S50000x256_S450000x1_S450000x256_1_0_n_n_0_1_1256_wf : GatherDims.WF S50000x256 S450000x1 S450000x256 [1] [0] [] [0] [] 1 ![1, 256]
  scatter_S50000x256_S450000x1_S450000x256_1_0_0_1_wf : ScatterDims.WF S50000x256 S450000x1 S450000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x256.size a ≤ S50000x256.size a
  hwx1_4 : ∀ i : grid1.Coords, EltTy.bits .f32 = 32 ∨ (Rect.block (s := S50000x256) S5000x256.size (cc1_transform_4 i) (hinb1_4 i)).WholeWords (EltTy.packing .f32)

variable [Facts₀]

def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S450000x1_S450000x256_1_0_n_n_0_1_1256 : GatherDims S50000x256 S450000x1 S450000x256 where
  offsetDims := [1]
  collapsedSliceDims := [0]
  operandBatchingDims := []
  startIndicesBatchingDims := []
  startIndexMap := [0]
  indexVectorDim := 1
  sliceSizes := ![1, 256]
  wf := gather_S50000x256_S450000x1_S450000x256_1_0_n_n_0_1_1256_wf
def scatter_S50000x256_S450000x1_S450000x256_1_0_0_1 : ScatterDims S50000x256 S450000x1 S450000x256 where
  updateWindowDims := [1]
  insertedWindowDims := [0]
  scatterDimsToOperandDims := [0]
  indexVectorDim := 1
  wf := scatter_S50000x256_S450000x1_S450000x256_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x400000 : Shape := ⟨2, ![2, 400000]⟩
abbrev S256x256 : Shape := ⟨2, ![256, 256]⟩
abbrev S256 : Shape := ⟨1, ![256]⟩
abbrev S1x400000 : Shape := ⟨2, ![1, 400000]⟩
abbrev S400000 : Shape := ⟨1, ![400000]⟩
abbrev S50000 : Shape := ⟨1, ![50000]⟩
abbrev S450000 : Shape := ⟨1, ![450000]⟩
abbrev S_ : Shape := ⟨0, ![]⟩
abbrev S450000x1 : Shape := ⟨2, ![450000, 1]⟩
abbrev S450000x256 : Shape := ⟨2, ![450000, 256]⟩
abbrev S1x256 : Shape := ⟨2, ![1, 256]⟩

abbrev nBuf : Space → Nat
  | .hbm => 128
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x400000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S1x400000, .i32⟩
  | .hbm, ⟨7, _⟩ => ⟨S400000, .i32⟩
  | .hbm, ⟨8, _⟩ => ⟨S1x400000, .i32⟩
  | .hbm, ⟨9, _⟩ => ⟨S400000, .i32⟩
  | .hbm, ⟨10, _⟩ => ⟨S50000x256, .f32⟩
  | .hbm, ⟨11, _⟩ => ⟨S50000, .i32⟩
  | .hbm, ⟨12, _⟩ => ⟨S450000, .i32⟩
  | .hbm, ⟨13, _⟩ => ⟨S450000, .i32⟩
  | .hbm, ⟨14, _⟩ => ⟨S_, .f32⟩
  | .hbm, ⟨15, _⟩ => ⟨S450000, .f32⟩
  | .hbm, ⟨16, _⟩ => ⟨S_, .f32⟩
  | .hbm, ⟨17, _⟩ => ⟨S50000, .f32⟩
  | .hbm, ⟨18, _⟩ => ⟨S450000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S450000, .i32⟩
  | .hbm, ⟨30, _⟩ => ⟨S450000, .i1⟩
  | .hbm, ⟨31, _⟩ => ⟨S_, .i32⟩
  | .hbm, ⟨32, _⟩ => ⟨S450000, .i32⟩
  | .hbm, ⟨33, _⟩ => ⟨S450000, .i32⟩
  | .hbm, ⟨34, _⟩ => ⟨S450000, .i32⟩
  | .hbm, ⟨35, _⟩ => ⟨S450000x1, .i32⟩
  | .hbm, ⟨36, _⟩ => ⟨S450000, .f32⟩
  | .hbm, ⟨37, _⟩ => ⟨S_, .i32⟩
  | .hbm, ⟨38, _⟩ => ⟨S450000, .i32⟩
  | .hbm, ⟨39, _⟩ => ⟨S450000, .i1⟩
  | .hbm, ⟨40, _⟩ => ⟨S_, .i32⟩
  | .hbm, ⟨41, _⟩ => ⟨S450000, .i32⟩
  | .hbm, ⟨42, _⟩ => ⟨S450000, .i32⟩
  | .hbm, ⟨43, _⟩ => ⟨S450000, .i32⟩
  | .hbm, ⟨44, _⟩ => ⟨S450000x1, .i32⟩
  | .hbm, ⟨45, _⟩ => ⟨S450000, .f32⟩
  | .hbm, ⟨46, _⟩ => ⟨S450000, .f32⟩
  | .hbm, ⟨47, _⟩ => ⟨S_, .i32⟩
  | .hbm, ⟨48, _⟩ => ⟨S450000, .i32⟩
  | .hbm, ⟨49, _⟩ => ⟨S450000, .i1⟩
  | .hbm, ⟨50, _⟩ => ⟨S_, .i32⟩
  | .hbm, ⟨51, _⟩ => ⟨S450000, .i32⟩
  | .hbm, ⟨52, _⟩ => ⟨S450000, .i32⟩
  | .hbm, ⟨53, _⟩ => ⟨S450000, .i32⟩
  | .hbm, ⟨54, _⟩ => ⟨S450000x1, .i32⟩
  | .hbm, ⟨55, _⟩ => ⟨S450000x256, .f32⟩
  | .hbm, ⟨56, _⟩ => ⟨S450000x1, .f32⟩
  | .hbm, ⟨57, _⟩ => ⟨S450000x256, .f32⟩
  | .hbm, ⟨58, _⟩ => ⟨S450000x256, .f32⟩
  | .hbm, ⟨59, _⟩ => ⟨S_, .f32⟩
  | .hbm, ⟨60, _⟩ => ⟨S50000x256, .f32⟩
  | .hbm, ⟨61, _⟩ => ⟨S450000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x256, .f32⟩
  | .hbm, ⟨70, _⟩ => ⟨S50000, .i32⟩
  | .hbm, ⟨71, _⟩ => ⟨S450000, .i32⟩
  | .hbm, ⟨72, _⟩ => ⟨S450000, .i32⟩
  | .hbm, ⟨73, _⟩ => ⟨S_, .f32⟩
  | .hbm, ⟨74, _⟩ => ⟨S450000, .f32⟩
  | .hbm, ⟨75, _⟩ => ⟨S_, .f32⟩
  | .hbm, ⟨76, _⟩ => ⟨S50000, .f32⟩
  | .hbm, ⟨77, _⟩ => ⟨S450000x1, .i32⟩
  | .hbm, ⟨78, _⟩ => ⟨S50000, .f32⟩
  | .hbm, ⟨79, _⟩ => ⟨S_, .f32⟩
  | .hbm, ⟨80, _⟩ => ⟨S50000, .f32⟩
  | .hbm, ⟨81, _⟩ => ⟨S50000, .i1⟩
  | .hbm, ⟨82, _⟩ => ⟨S50000, .f32⟩
  | .hbm, ⟨83, _⟩ => ⟨S_, .f32⟩
  | .hbm, ⟨84, _⟩ => ⟨S_, .f32⟩
  | .hbm, ⟨85, _⟩ => ⟨S50000, .f32⟩
  | .hbm, ⟨86, _⟩ => ⟨S50000, .f32⟩
  | .hbm, ⟨87, _⟩ => ⟨S_, .i32⟩
  | .hbm, ⟨88, _⟩ => ⟨S450000, .i32⟩
  | .hbm, ⟨89, _⟩ => ⟨S450000, .i1⟩
  | .hbm, ⟨90, _⟩ => ⟨S_, .i32⟩
  | .hbm, ⟨91, _⟩ => ⟨S450000, .i32⟩
  | .hbm, ⟨92, _⟩ => ⟨S450000, .i32⟩
  | .hbm, ⟨93, _⟩ => ⟨S450000, .i32⟩
  | .hbm, ⟨94, _⟩ => ⟨S450000x1, .i32⟩
  | .hbm, ⟨95, _⟩ => ⟨S450000, .f32⟩
  | .hbm, ⟨96, _⟩ => ⟨S_, .i32⟩
  | .hbm, ⟨97, _⟩ => ⟨S450000, .i32⟩
  | .hbm, ⟨98, _⟩ => ⟨S450000, .i1⟩
  | .hbm, ⟨99, _⟩ => ⟨S_, .i32⟩
  | .hbm, ⟨100, _⟩ => ⟨S450000, .i32⟩
  | .hbm, ⟨101, _⟩ => ⟨S450000, .i32⟩
  | .hbm, ⟨102, _⟩ => ⟨S450000, .i32⟩
  | .hbm, ⟨103, _⟩ => ⟨S450000x1, .i32⟩
  | .hbm, ⟨104, _⟩ => ⟨S450000, .f32⟩
  | .hbm, ⟨105, _⟩ => ⟨S450000, .f32⟩
  | .hbm, ⟨106, _⟩ => ⟨S_, .i32⟩
  | .hbm, ⟨107, _⟩ => ⟨S450000, .i32⟩
  | .hbm, ⟨108, _⟩ => ⟨S450000, .i1⟩
  | .hbm, ⟨109, _⟩ => ⟨S_, .i32⟩
  | .hbm, ⟨110, _⟩ => ⟨S450000, .i32⟩
  | .hbm, ⟨111, _⟩ => ⟨S450000, .i32⟩
  | .hbm, ⟨112, _⟩ => ⟨S450000, .i32⟩
  | .hbm, ⟨113, _⟩ => ⟨S450000x1, .i32⟩
  | .hbm, ⟨114, _⟩ => ⟨S450000x256, .f32⟩
  | .hbm, ⟨115, _⟩ => ⟨S450000x1, .f32⟩
  | .hbm, ⟨116, _⟩ => ⟨S450000x256, .f32⟩
  | .hbm, ⟨117, _⟩ => ⟨S450000x256, .f32⟩
  | .hbm, ⟨118, _⟩ => ⟨S_, .f32⟩
  | .hbm, ⟨119, _⟩ => ⟨S50000x256, .f32⟩
  | .hbm, ⟨120, _⟩ => ⟨S450000x1, .i32⟩
  | .hbm, ⟨121, _⟩ => ⟨S50000x256, .f32⟩
  | .hbm, ⟨122, _⟩ => ⟨S1x256, .f32⟩
  | .hbm, ⟨123, _⟩ => ⟨S50000x256, .f32⟩
  | .hbm, ⟨124, _⟩ => ⟨S50000x256, .f32⟩
  | .hbm, ⟨125, _⟩ => ⟨S_, .f32⟩
  | .hbm, ⟨126, _⟩ => ⟨S50000x256, .f32⟩
  | .hbm, ⟨127, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_v91 : Ref sig .tc := ⟨.hbm, 127, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  concatenates_S400000_S50000_S450000_d0 : Shape.Concatenates [S400000, S50000] S450000 0
  bcast_S_S450000 : S_.BroadcastsInDim S450000 (![] : Fin 0 → Fin S450000.rank)
  bcast_S_S50000 : S_.BroadcastsInDim S50000 (![] : Fin 0 → Fin S50000.rank)
  bcast_S450000_S450000x1_0 : S450000.BroadcastsInDim S450000x1 (![0] : Fin 1 → Fin S450000x1.rank)
  bcast_S450000x1_S450000x256_0_1 : S450000x1.BroadcastsInDim S450000x256 (![0, 1] : Fin 2 → Fin S450000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  dot_S50000x256_S256x256_S50000x256_1_0_0_1_n_n_wf : DotDims.WF S50000x256 S256x256 S50000x256 [1] [0] [0] [1] [] []
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  gather_S50000x256_S450000x1_S450000x256_1_0_n_n_0_1_1256_wf : GatherDims.WF S50000x256 S450000x1 S450000x256 [1] [0] [] [0] [] 1 ![1, 256]
  scatter_S50000x256_S450000x1_S450000x256_1_0_0_1_wf : ScatterDims.WF S50000x256 S450000x1 S450000x256 [1] [0] [0] 1

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def gather_S50000x256_S450000x1_S450000x256_1_0_n_n_0_1_1256 : GatherDims S50000x256 S450000x1 S450000x256 where
  offsetDims := [1]
  collapsedSliceDims := [0]
  operandBatchingDims := []
  startIndicesBatchingDims := []
  startIndexMap := [0]
  indexVectorDim := 1
  sliceSizes := ![1, 256]
  wf := gather_S50000x256_S450000x1_S450000x256_1_0_n_n_0_1_1256_wf
def scatter_S50000x256_S450000x1_S450000x256_1_0_0_1 : ScatterDims S50000x256 S450000x1 S450000x256 where
  updateWindowDims := [1]
  insertedWindowDims := [0]
  scatterDimsToOperandDims := [0]
  indexVectorDim := 1
  wf := scatter_S50000x256_S450000x1_S450000x256_1_0_0_1_wf

class Facts : Prop extends Facts₀ where

variable [Facts]
-- ==== Proof.Spec.lean ====
/-
  The graph convolution both programs compute, as functions on whole arrays over the extended reals.

  A graph has 50000 nodes and 450000 directed edges (400000 given ones followed by one self loop per node);
  edge e goes from node src e to node dst e. Both programs compute, twice in a row, the normalised convolution
      out[v, q] = Σ_{e : dst e = v} (h[src e, q] · dinv[src e]) · dinv[v]   (+ a bias row, clamped at zero)
  of a dense transform h = input · W, where dinv[v] is the inverse square root of node v's in-degree (zero at a
  node of degree zero). They differ in where the two dinv factors are applied: one program scales the rows of h
  before the edges are walked and the rows of the sum after; the other scales every edge's message by the product
  dinv[src e] · dinv[dst e]. This file names the pieces: the edge lists, the degree normaliser, the two
  aggregations, the row scaling and the two dense stages.
-/
import Idealize.ShloMosaic.PureOps.Ideal
import Idealize.ShloMosaic.PureOps.Ideal.Laws
import Idealize.ShloMosaic.PureOps.ShapeOps
import Idealize.ShloMosaic.PureOps.Contract
import Idealize.ShloMosaic.PureOps.Vector
import Idealize.ShloMosaic.Lib.ValueIdx

noncomputable section

open scoped BigOperators

namespace Cert.Gcn

open Idealize.ShloMosaic Idealize.ShloMosaic.ValueIdx

/-! ## Shapes -/

abbrev S0 : Shape := ⟨0, ![]⟩
abbrev SN : Shape := ⟨1, ![50000]⟩
abbrev SN1 : Shape := ⟨2, ![50000, 1]⟩
abbrev SND : Shape := ⟨2, ![50000, 256]⟩
abbrev SD : Shape := ⟨1, ![256]⟩
abbrev S1D : Shape := ⟨2, ![1, 256]⟩
abbrev SDD : Shape := ⟨2, ![256, 256]⟩
abbrev SE : Shape := ⟨1, ![450000]⟩
abbrev SE1 : Shape := ⟨2, ![450000, 1]⟩
abbrev SED : Shape := ⟨2, ![450000, 256]⟩
abbrev SG : Shape := ⟨1, ![400000]⟩
abbrev S1G : Shape := ⟨2, ![1, 400000]⟩
abbrev S2G : Shape := ⟨2, ![2, 400000]⟩

/-! ## Dimension numbers -/

/-- Rows of an [N, D] array added at the rows named by an [E, 1] index column. -/
def scat2 : ScatterDims SND SE1 SED where
  updateWindowDims := [1]
  insertedWindowDims := [0]
  scatterDimsToOperandDims := [0]
  indexVectorDim := 1

/-- Entries of an [N] array added at the positions named by an [E, 1] index column. -/
def scat1 : ScatterDims SN SE1 SE where
  updateWindowDims := []
  insertedWindowDims := [0]
  scatterDimsToOperandDims := [0]
  indexVectorDim := 1

/-- Rows of an [N, D] array taken at the rows named by an [E, 1] index column. -/
def gath2 : GatherDims SND SE1 SED where
  offsetDims := [1]
  collapsedSliceDims := [0]
  operandBatchingDims := []
  startIndicesBatchingDims := []
  startIndexMap := [0]
  indexVectorDim := 1
  sliceSizes := ![1, 256]

/-- Entries of an [N] array taken at the positions named by an [E, 1] index column. -/
def gath1 : GatherDims SN SE1 SE where
  offsetDims := []
  collapsedSliceDims := [0]
  operandBatchingDims := []
  startIndicesBatchingDims := []
  startIndexMap := [0]
  indexVectorDim := 1
  sliceSizes := ![1]

/-- The [N, D] by [D, D] matrix product. -/
def dotND : DotDims SND SDD SND where
  lhsContracting := [1]
  rhsContracting := [0]
  lhsNonContracting := [0]
  rhsNonContracting := [1]
  lhsBatch := []
  rhsBatch := []

/-! ## The edge lists and the degree normaliser -/

/-- The source node of every edge: row 0 of the [2, 400000] edge array followed by the 50000 self loops 0, 1, …, 49999. -/
def srcOf (ei : IVec S2G 32) : IVec SE 32 :=
  concatenate SE 0 [⟨SG, shapeCast SG (extractStridedSlice S1G ![0, 0] ei (by decide)) (by decide)⟩, ⟨SN, iotaInDim SN 32 0⟩]
    (show Shape.Concatenates [SG, SN] SE 0 by decide)
/-- The destination node of every edge: row 1 of the edge array followed by the same self loops. -/
def dstOf (ei : IVec S2G 32) : IVec SE 32 :=
  concatenate SE 0 [⟨SG, shapeCast SG (extractStridedSlice S1G ![1, 0] ei (by decide)) (by decide)⟩, ⟨SN, iotaInDim SN 32 0⟩]
    (show Shape.Concatenates [SG, SN] SE 0 by decide)

/-- An index list as an [E, 1] column. -/
def toCol (v : IVec SE 32) : IVec SE1 32 := broadcastInDim SE1 ![0] (by decide) v

/-- Python's negative indexing: a negative index counts from the end. -/
def wrapIdx (v : IVec SE 32) : IVec SE 32 :=
  select (cmpi .slt v (broadcastInDim SE ![] (by decide) (constantI S0 32 0#32)))
    (addi v (broadcastInDim SE ![] (by decide) (constantI S0 32 50000#32))) v

/-- The zero [N, D] array. -/
def zerosND : FVec Ideal SND .f32 := broadcastInDim SND ![] (by decide) (constant (F := Ideal) S0 .f32 0x00000000#32)

/-- The in-degree of every node: one added per edge at its destination. -/
def degOf (ei : IVec S2G 32) : FVec Ideal SN .f32 :=
  Host.scatterAdd (F := Ideal) scat1 (broadcastInDim SN ![] (by decide) (constant (F := Ideal) S0 .f32 0x00000000#32))
    (toCol (dstOf ei)) (broadcastInDim SE ![] (by decide) (constant (F := Ideal) S0 .f32 0x3F800000#32))

/-- The normaliser: the inverse square root of the degree, zero where the degree is not positive. -/
def dinvOf (ei : IVec S2G 32) : FVec Ideal SN .f32 :=
  select (cmpf .ogt (degOf ei) (broadcastInDim SN ![] (by decide) (constant (F := Ideal) S0 .f32 0x00000000#32)))
    (Host.rsqrt (F := Ideal) (degOf ei))
    (broadcastInDim SN ![] (by decide) (id (constant (F := Ideal) S0 .f32 0x00000000#32)))

/-! ## The two aggregations -/

/-- Every row of `h` scaled by its node's factor. -/
def scaleRows (h : FVec Ideal SND .f32) (dinv : FVec Ideal SN .f32) : FVec Ideal SND .f32 :=
  fun i => h i * dinv (ix1 (i 0 : Fin 50000))

theorem scaleRows_apply (h : FVec Ideal SND .f32) (dinv : FVec Ideal SN .f32) (p : Fin 50000) (q : Fin 256) :
    scaleRows h dinv (ix2 p q) = h (ix2 p q) * dinv (ix1 p) := rfl

/-- The plain aggregation: row v of the result is the sum of the rows `h[src e]` over the edges e into v. -/
def aggK (src dst : IVec SE 32) (h : FVec Ideal SND .f32) : FVec Ideal SND .f32 :=
  Host.scatterAdd (F := Ideal) scat2 zerosND (toCol dst) (Host.gather gath2 h (toCol (wrapIdx src)))

/-- The per-edge weight dinv[src e] · dinv[dst e]. -/
def edgeNorm (src dst : IVec SE 32) (dinv : FVec Ideal SN .f32) : FVec Ideal SE .f32 :=
  mulf (Host.gather gath1 dinv (toCol (wrapIdx src))) (Host.gather gath1 dinv (toCol (wrapIdx dst)))

/-- The weighted aggregation: row v of the result is the sum of `h[src e] · (dinv[src e] · dinv[dst e])` over the
    edges e into v. -/
def aggR (src dst : IVec SE 32) (dinv : FVec Ideal SN .f32) (h : FVec Ideal SND .f32) : FVec Ideal SND .f32 :=
  Host.scatterAdd (F := Ideal) scat2 zerosND (toCol dst)
    (mulf (Host.gather gath2 h (toCol (wrapIdx src)))
      (broadcastInDim SED ![0, 1] (by decide) (broadcastInDim SE1 ![0] (by decide) (edgeNorm src dst dinv))))

/-! ## The dense stages, entry by entry -/

/-- The matrix product `x · w` at (p, q). -/
def mm (x : FVec Ideal SND .f32) (w : FVec Ideal SDD .f32) (p : Fin 50000) (q : Fin 256) : EReal :=
  ∑ k : Fin 256, x (ix2 p k) * w (ix2 k q)

/-- The first dense stage: `(x · w)[p, q] · dv[p]`. -/
def dense0 (x : FVec Ideal SND .f32) (w : FVec Ideal SDD .f32) (dv : FVec Ideal SN1 .f32) : FVec Ideal SND .f32 :=
  fun i => mm x w (i 0) (i 1) * dv (ix2 (i 0 : Fin 50000) (0 : Fin 1))

/-- The input of the second product: `max (a[p, k] · dv[p] + b[k]) 0`. -/
def act1 (a : FVec Ideal SND .f32) (dv : FVec Ideal SN1 .f32) (b : FVec Ideal S1D .f32) : FVec Ideal SND .f32 :=
  fun i => max (a i * dv (ix2 (i 0 : Fin 50000) (0 : Fin 1)) + b (ix2 (0 : Fin 1) (i 1 : Fin 256))) 0

/-- The second dense stage: `(act1 a dv b · w)[p, q] · dv[p]`. -/
def dense1 (a : FVec Ideal SND .f32) (w : FVec Ideal SDD .f32) (dv : FVec Ideal SN1 .f32) (b : FVec Ideal S1D .f32) :
    FVec Ideal SND .f32 :=
  fun i => mm (act1 a dv b) w (i 0) (i 1) * dv (ix2 (i 0 : Fin 50000) (0 : Fin 1))

theorem dense0_apply (x : FVec Ideal SND .f32) (w : FVec Ideal SDD .f32) (dv : FVec Ideal SN1 .f32) (p : Fin 50000) (q : Fin 256) :
    dense0 x w dv (ix2 p q) = mm x w p q * dv (ix2 p (0 : Fin 1)) := rfl

theorem act1_apply (a : FVec Ideal SND .f32) (dv : FVec Ideal SN1 .f32) (b : FVec Ideal S1D .f32) (p : Fin 50000) (q : Fin 256) :
    act1 a dv b (ix2 p q) = max (a (ix2 p q) * dv (ix2 p (0 : Fin 1)) + b (ix2 (0 : Fin 1) q)) 0 := rfl

theorem dense1_apply (a : FVec Ideal SND .f32) (w : FVec Ideal SDD .f32) (dv : FVec Ideal SN1 .f32) (b : FVec Ideal S1D .f32)
    (p : Fin 50000) (q : Fin 256) :
    dense1 a w dv b (ix2 p q) = mm (act1 a dv b) w p q * dv (ix2 p (0 : Fin 1)) := rfl

/-! ## What the kernel program returns -/

/-- The kernel program's result as a function of its six arguments: the rows of `x · W1` scaled, aggregated, scaled
    again with the bias and the clamp inside the second dense stage, aggregated again, scaled, biased and clamped. -/
def kernelOut (x : FVec Ideal SND .f32) (ei : IVec S2G 32) (w1 : FVec Ideal SDD .f32) (b1 : FVec Ideal SD .f32)
    (w2 : FVec Ideal SDD .f32) (b2 : FVec Ideal SD .f32) : FVec Ideal SND .f32 :=
  let dv : FVec Ideal SN1 .f32 := shapeCast SN1 (dinvOf ei) (by decide)
  let agg1 := aggK (srcOf ei) (dstOf ei) (dense0 x w1 dv)
  let agg2 := aggK (srcOf ei) (dstOf ei) (dense1 agg1 w2 dv (shapeCast S1D b1 (by decide)))
  maximumf (addf (mulf (broadcastInDim SND ![0, 1] (by decide) dv) agg2)
      (broadcastInDim SND ![0, 1] (by decide) (broadcastInDim S1D ![1] (by decide) b2)))
    (broadcastInDim SND ![] (by decide) (constant (F := Ideal) S0 .f32 0x00000000#32))

/-- One layer of the reference program: the weighted aggregation of `h`, plus the bias row, clamped at zero. -/
def refLayer (ei : IVec S2G 32) (h : FVec Ideal SND .f32) (b : FVec Ideal SD .f32) : FVec Ideal SND .f32 :=
  maximumf (addf (aggR (srcOf ei) (dstOf ei) (dinvOf ei) h)
      (broadcastInDim SND ![0, 1] (by decide) (broadcastInDim S1D ![1] (by decide) b)))
    (broadcastInDim SND ![] (by decide) (constant (F := Ideal) S0 .f32 0x00000000#32))

/-- The reference program's result: two layers, each the weighted aggregation of a matrix product. -/
def refOut (x : FVec Ideal SND .f32) (ei : IVec S2G 32) (w1 : FVec Ideal SDD .f32) (b1 : FVec Ideal SD .f32)
    (w2 : FVec Ideal SDD .f32) (b2 : FVec Ideal SD .f32) : FVec Ideal SND .f32 :=
  refLayer ei (Host.dotGeneral (F := Ideal) dotND none (refLayer ei (Host.dotGeneral (F := Ideal) dotND none x w1) b1) w2) b2

end Cert.Gcn

end
-- ==== Proof.RefValue.lean ====
/-
  The reference program's result term is `Cert.Gcn.refOut` of its six arguments.
-/
import proofs.«109636_j69595650065050_2_alg».proof.Proof.RefRun
import proofs.«109636_j69595650065050_2_alg».proof.Proof.Spec

set_option maxRecDepth 16384

noncomputable section

namespace Cert.ReferenceIdeal.RefValue

open Cert.ReferenceIdeal Cert.ReferenceIdeal.Gen Idealize.ShloMosaic Idealize.ShloMosaic.TcCoe Idealize.SL.Sem

/-- The reference program's composed result term, with the edge lists, the normaliser, the weighted aggregation and the two
    layers named: the same term, by unfolding the names. -/
theorem res_eq (m : (ℓ : Loc nD τ sig) → Buf (Elt Ideal) ℓ) (c : Dev nD) :
    Cert.ReferenceIdeal.ValueP.res_main_v91 (F := Ideal) m c = Cert.Gcn.refOut (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.ValueP.res_main_v91
  rfl

end Cert.ReferenceIdeal.RefValue

end
-- ==== Proof.LibMatmul.lean ====
/-
  A plain matrix product read at an index. For the dimension numbers of an M×K by K×N product (contract the left
  operand's second axis with the right operand's first), the contraction's sum at output index (p, q), which the
  library states over the contraction shape's own index type, is the textbook sum over k : Fin K of L[p, k] · R[k, q].
-/
import Idealize.ShloMosaic.PureOps.Ideal
import Idealize.ShloMosaic.PureOps.Ideal.Laws
import Idealize.ShloMosaic.Lib.ValueIdx

noncomputable section

open scoped BigOperators

namespace Cert.Bridge.LibMatmul

open Idealize.ShloMosaic Idealize.ShloMosaic.ValueIdx

variable {M K N : Nat}

theorem plain_rank : (DotDims.plain M K N).contr.rank = 1 := rfl
theorem plain_size : (DotDims.plain M K N).contr.size ⟨0, by rw [plain_rank]; exact Nat.one_pos⟩ = K := rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K plain_rank plain_size).symm k) = ix2 p k := by
  funext a
  refine Fin.ext ?_
  match a with
  | ⟨0, _⟩ => rfl
  | ⟨1, _⟩ =>
    refine ((DotDims.plain M K N).lhsIdx_val_of_single (cl := 1) rfl (ix2 p q) _).trans ?_
    exact contrEquiv1_symm_val (DotDims.plain M K N) K plain_rank plain_size k

/-- The right operand's index at output (p, q) and contraction coordinate k is (k, q). -/
theorem plain_rhsIdx (p : Fin M) (q : Fin N) (k : Fin K) :
    (DotDims.plain M K N).rhsIdx (ix2 p q) ((contrEquiv1 (DotDims.plain M K N) K plain_rank plain_size).symm k) = ix2 k q := by
  funext a
  refine Fin.ext ?_
  match a with
  | ⟨0, _⟩ =>
    refine ((DotDims.plain M K N).rhsIdx_val_of_single (cr := 0) rfl (ix2 p q) _).trans ?_
    exact contrEquiv1_symm_val (DotDims.plain M K N) K plain_rank plain_size k
  | ⟨1, _⟩ => rfl

/-- The contraction's sum, over the textbook index. -/
theorem plain_sum {α : Type} [AddCommMonoid α] [Mul α] (L : (⟨2, ![M, K]⟩ : Shape).Idx → α) (R : (⟨2, ![K, N]⟩ : Shape).Idx → α)
    (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K plain_rank plain_size).symm]
  refine Finset.sum_congr rfl fun k _ => ?_
  rw [plain_lhsIdx, plain_rhsIdx]

/-- A matrix unit's product into the zero accumulator, at the extended reals, read at (p, q). -/
theorem matmul_zero_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) :=
  (Ideal.matmul_constant_zero_apply _ prec L R (ix2 p q)).trans (plain_sum L R p q)

/-- The host's product, at the extended reals, read at (p, q). -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q) = ∑ k : Fin K, L (ix2 p k) * R (ix2 k q) :=
  (Ideal.dotGeneral_apply _ prec sched L R (ix2 p q)).trans (plain_sum L R p q)

end Cert.Bridge.LibMatmul

end
-- ==== Proof.LibUnitAxis.lean ====
/-
  Casts and broadcasts across a unit axis, read at an index, at any extents.

  A `keepdims` reduction leaves a unit axis behind, and a row-wise statistic is spread back over its row through one:
  a matrix `[a, b]` is viewed as `[a, 1, b]` and back, a vector `[a]` as the column `[a, 1]`, and a unit axis is
  broadcast over many. A cast keeps every element's row-major position, and a unit axis contributes nothing to it;
  a broadcast reads the operand at the same coordinates, except 0 on each unit axis. The five forms below are stated
  over the literal-size index constructors `ix1 … ix3`, so that they fire on indices built from coordinates.
-/
import Idealize.ShloMosaic.Lib.Pipeline.Value
import Idealize.ShloMosaic.Lib.ValueIdx
import Idealize.ShloMosaic.Lib.ValueLayout
noncomputable section
open Idealize.ShloMosaic Idealize.ShloMosaic.ValueIdx
namespace Cert.Lib.UnitAxis

/-! ## The five forms

A matrix viewed with a unit middle axis and back, a vector viewed as one column, and a unit axis broadcast over
many. Each is a statement about row-major positions (a cast) or about which coordinates are kept (a broadcast). -/

section Layout
variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1, b]` array broadcast to `[a, m, b]` reads, at `(p, q, c)`, the operand at `(p, 0, c)`. -/
theorem broadcastTo_a1b_amb_apply {a m b : ℕ} (v : (⟨3, ![a, 1, b]⟩ : Shape).Idx → α)
    (h : (⟨3, ![a, 1, b]⟩ : Shape).Broadcasts ⟨3, ![a, m, b]⟩) (p : Fin a) (q : Fin m) (c : Fin b) :
    broadcastTo ⟨3, ![a, m, b]⟩ v h (ix3 p q c) = v (ix3 p (0 : Fin 1) c) := by
  refine broadcastTo_apply v h (ix3 p q c) (ix3 p (0 : Fin 1) c) fun ax => ?_
  match ax with
  | ⟨0, _⟩ =>
    show p.val = if a = 1 then 0 else p.val
    split
    · have := p.isLt; omega
    · rfl
  | ⟨1, _⟩ => rfl
  | ⟨2, _⟩ =>
    show c.val = if b = 1 then 0 else c.val
    split
    · have := c.isLt; omega
    · rfl

end Layout

end Cert.Lib.UnitAxis

end
-- ==== Proof.RegionValue1.lean ====
/-
  What the second kernel region leaves in its output array, as one function of the four arrays it reads.

  At grid point t the region reads rows 5000 t … 5000 t + 4999 of the aggregated array a and of the scaling column dv,
  the whole weight matrix w and the whole bias row b, and writes rows 5000 t … 5000 t + 4999 of its output:
  entry (p, q) is (Σ_k max (a[p, k] · dv[p] + b[k]) 0 · w[k, q]) · dv[p]. The ten row blocks cover the output.
-/
import proofs.«109636_j69595650065050_2_alg».proof.Proof.Gen.KernelIdeal.Frame
import proofs.«109636_j69595650065050_2_alg».proof.Proof.Spec
import proofs.«109636_j69595650065050_2_alg».proof.Proof.LibMatmul
import proofs.«109636_j69595650065050_2_alg».proof.Proof.LibUnitAxis
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat Cfg Window)
open Cert.Bridge.LibMatmul Cert.Lib.UnitAxis

/-- The kernel's contraction record is the plain 5000×256 by 256×256 product's. -/
theorem dot_eq_plain : dot_S5000x256_S256x256_S5000x256_1_0_0_1_n_n = DotDims.plain 5000 256 256 := rfl

/-- The zero offsets of a whole-buffer access, as the constant function. -/
theorem hz : (![0, 0] : Fin 2 → Nat) = fun _ => 0 := funext fun a => by fin_cases a <;> rfl

/-- The second kernel's stored block at (r, q): the clamped, shifted and scaled row r of the first block times column q
    of the weight block, scaled by the column block's entry of row r. -/
theorem pay1_apply (x0 : Vec Ideal S5000x256 .f32) (x2 : Vec Ideal S5000x1 .f32) (x3 : Vec Ideal S1x256 .f32)
    (x1 : Vec Ideal S256x256 .f32) (x2' : Vec Ideal S5000x1 .f32) (r : Fin 5000) (q : Fin 256) :
    k1_pay1 x0 x2 x3 x1 x2' (ix2 r q)
      = (∑ k : Fin 256, max (x0 (ix2 r k) * x2 (ix2 r (0 : Fin 1)) + x3 (ix2 (0 : Fin 1) k)) 0 * x1 (ix2 k q))
        * x2' (ix2 r (0 : Fin 1)) := by
  unfold k1_pay1
  show FloatOps.matmul dot_S5000x256_S256x256_S5000x256_1_0_0_1_n_n none _ _ _ (ix2 r q) * broadcastTo S5000x256 _ _ (ix2 r q) = _
  rw [dot_eq_plain]
  refine congrArg₂ (· * ·) ((matmul_zero_apply none _ _ r q).trans (Finset.sum_congr rfl fun k _ => ?_))
    ((broadcastTo_a1_ab_apply _ _ r q).trans ?_)
  · refine congrArg₂ (· * ·) ?_ rfl
    show max (shapeCast S5000x256 x0 _ (ix2 r k) * broadcastTo S5000x256 (shapeCast S5000x1 x2 _) _ (ix2 r k)
      + broadcastTo S5000x256 (shapeCast S1x256 x3 _) _ (ix2 r k)) (Ideal.ofBits .f32 0x00000000#32) = _
    rw [shapeCast_self, shapeCast_self, shapeCast_self, broadcastTo_a1_ab_apply, broadcastTo_1b_ab_apply, Ideal.ofBits_zero_f32]
  · rw [shapeCast_self]

section Blocks
variable (V : (c : Dev nD) → (b : Ref sig .tc) → Buf (Elt Ideal) ((c : Thread nD τ).loc b))

/-- The second region's block indices, decided over its ten points: the row-block windows sit at block (t, 0), the
    weight and bias-row windows at block (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Block t of the aggregated operand is its rows 5000 t … 5000 t + 4999. -/
theorem iblk1_0_apply (c : Dev nD) (t : Fin cfg1.N) (r : Fin 5000) (k : Fin 256) (p : Fin 50000)
    (hp : p.val = t.val * 5000 + r.val) :
    (iblk1 V c 0 t : Vec Ideal S5000x256 .f32) (ix2 r k) = (V c main_v26 : S50000x256.Idx → Ideal .f32) (ix2 p k) := by
  obtain ⟨e0, e1, -⟩ := idx_facts1 t
  unfold iblk1
  rw [View.read_apply]
  show V c main_v26 _ = V c main_v26 _
  refine congrArg (V c main_v26) (funext fun a => Fin.ext ?_)
  match a with
  | ⟨0, _⟩ => show win1_0.index t (0 : Fin 2) * 5000 + 1 * r.val = p.val; rw [e0, hp]; omega
  | ⟨1, _⟩ => show win1_0.index t (1 : Fin 2) * 256 + 1 * k.val = k.val; rw [e1]; omega

/-- The weight window's one block is the whole 256×256 operand. -/
theorem iblk1_1_apply (c : Dev nD) (t : Fin cfg1.N) (k q : Fin 256) :
    (iblk1 V c 1 t : Vec Ideal S256x256 .f32) (ix2 k q) = (V c main_arg4 : S256x256.Idx → Ideal .f32) (ix2 k q) := by
  obtain ⟨-, -, e0, e1, -⟩ := idx_facts1 t
  unfold iblk1
  rw [View.read_apply]
  show V c main_arg4 _ = V c main_arg4 _
  refine congrArg (V c main_arg4) (funext fun a => Fin.ext ?_)
  match a with
  | ⟨0, _⟩ => show win1_1.index t (0 : Fin 2) * 256 + 1 * k.val = k.val; rw [e0]; omega
  | ⟨1, _⟩ => show win1_1.index t (1 : Fin 2) * 256 + 1 * q.val = q.val; rw [e1]; omega

/-- Block t of the scaling column is its rows 5000 t … 5000 t + 4999. -/
theorem iblk1_2_apply (c : Dev nD) (t : Fin cfg1.N) (r : Fin 5000) (u : Fin 1) (p : Fin 50000)
    (hp : p.val = t.val * 5000 + r.val) :
    (iblk1 V c 2 t : Vec Ideal S5000x1 .f32) (ix2 r u) = (V c main_v15 : S50000x1.Idx → Ideal .f32) (ix2 p u) := by
  obtain ⟨-, -, -, -, e0, e1, -⟩ := idx_facts1 t
  unfold iblk1
  rw [View.read_apply]
  show V c main_v15 _ = V c main_v15 _
  refine congrArg (V c main_v15) (funext fun a => Fin.ext ?_)
  match a with
  | ⟨0, _⟩ => show win1_2.index t (0 : Fin 2) * 5000 + 1 * r.val = p.val; rw [e0, hp]; omega
  | ⟨1, _⟩ => show win1_2.index t (1 : Fin 2) * 1 + 1 * u.val = u.val; rw [e1]; omega

/-- The bias-row window's one block is the whole 1×256 row. -/
theorem iblk1_3_apply (c : Dev nD) (t : Fin cfg1.N) (u : Fin 1) (k : Fin 256) :
    (iblk1 V c 3 t : Vec Ideal S1x256 .f32) (ix2 u k) = (V c main_v27 : S1x256.Idx → Ideal .f32) (ix2 u k) := by
  obtain ⟨-, -, -, -, -, -, e0, e1, -⟩ := idx_facts1 t
  unfold iblk1
  rw [View.read_apply]
  show V c main_v27 _ = V c main_v27 _
  refine congrArg (V c main_v27) (funext fun a => Fin.ext ?_)
  match a with
  | ⟨0, _⟩ => show win1_3.index t (0 : Fin 2) * 1 + 1 * u.val = u.val; rw [e0]; omega
  | ⟨1, _⟩ => show win1_3.index t (1 : Fin 2) * 256 + 1 * k.val = k.val; rw [e1]; omega

/-- What point t writes back is block t of the second dense stage of the whole operands. -/
theorem flushed1_eq (c : Dev nD) (t : Fin cfg1.N) :
    (dat1 (F := Ideal) V c).flushed 4 t
      = ((cfg1.win 4).blk t).view.read (Elt Ideal)
          (Cert.Gcn.dense1 (V c main_v26) (V c main_arg4) (V c main_v15) (V c main_v27)) := by
  show (cfg1.win 4).cut (grid1.coords t) ((dat1 V c).after 4 t) = _
  rw [after1_4]
  unfold out1_4
  rw [View.canon_unit_zero hz]
  simp only [View.ld_unit_zero (S := S5000x256) hz, View.ld_unit_zero (S := S256x256) hz, View.ld_unit_zero (S := S5000x1) hz,
    View.ld_unit_zero (S := S1x256) hz]
  obtain ⟨-, -, -, -, -, -, -, -, e0, e1⟩ := idx_facts1 t
  funext j
  have hr : (j 0).val < 5000 := (j 0).isLt
  have hq : (j 1).val < 256 := (j 1).isLt
  have ht : t.val < 10 := lt_of_lt_of_eq t.isLt N_1
  have hxj : (cfg1.win 4).xinj (grid1.coords t) j = ix2 (⟨(j 0).val, hr⟩ : Fin 5000) (⟨(j 1).val, hq⟩ : Fin 256) :=
    funext fun a => Fin.ext (by match a with | ⟨0, _⟩ => rfl | ⟨1, _⟩ => rfl)
  have hemb : ((cfg1.win 4).blk t).view.emb j
      = ix2 (⟨t.val * 5000 + (j 0).val, by omega⟩ : Fin 50000) (⟨(j 1).val, hq⟩ : Fin 256) :=
    funext fun a => Fin.ext (by
      match a with
      | ⟨0, _⟩ => show win1_4.index t (0 : Fin 2) * 5000 + 1 * (j 0).val = t.val * 5000 + (j 0).val; rw [e0]; omega
      | ⟨1, _⟩ => show win1_4.index t (1 : Fin 2) * 256 + 1 * (j 1).val = (j 1).val; rw [e1]; omega)
  show k1_pay1 (iblk1 V c 0 t) (iblk1 V c 2 t) (iblk1 V c 3 t) (iblk1 V c 1 t) (iblk1 V c 2 t)
        ((cfg1.win 4).xinj (grid1.coords t) j)
     = Cert.Gcn.dense1 (V c main_v26) (V c main_arg4) (V c main_v15) (V c main_v27) (((cfg1.win 4).blk t).view.emb j)
  rw [hxj, hemb, Cert.Gcn.dense1_apply]
  refine (pay1_apply (iblk1 V c 0 t) (iblk1 V c 2 t) (iblk1 V c 3 t) (iblk1 V c 1 t) (iblk1 V c 2 t) _ _).trans ?_
  unfold Cert.Gcn.mm
  refine congrArg₂ (· * ·) (Finset.sum_congr rfl fun k _ => congrArg₂ (· * ·) ?_ (iblk1_1_apply V c t k _))
    (iblk1_2_apply V c t _ 0 _ rfl)
  rw [Cert.Gcn.act1_apply]
  exact congrArg (max · 0) (congrArg₂ (· + ·)
    (congrArg₂ (· * ·) (iblk1_0_apply V c t _ k _ rfl) (iblk1_2_apply V c t _ 0 _ rfl)) (iblk1_3_apply V c t 0 k))

/-- An index of the output array is in point t's block iff each coordinate is in the block's range on its axis. -/
theorem mem_blk1 (t : Fin cfg1.N) (i : S50000x256.Idx) :
    i ∈ ((cfg1.win 4).blk t).view.set ↔ ∀ a : Fin 2, win1_4.index t a * S5000x256.size a ≤ (i a).val
      ∧ (i a).val < win1_4.index t a * S5000x256.size a + S5000x256.size a := by
  show i ∈ ((View.whole main_v28).slice (win1_4.rect t)).set ↔ _
  rw [View.set_slice_whole, Rect.mem_set_unit]
  exact Iff.rfl

/-- Row p of the output array is written by point p / 5000: the ten row blocks cover the array. -/
theorem cover1 (i : S50000x256.Idx) :
    ∃ t : Fin cfg1.N, (cfg1.win 4).flush t = true ∧ i ∈ ((cfg1.win 4).blk t).view.set := by
  have hi0 : (i 0).val < 50000 := (i 0).isLt
  have hi1 : (i 1).val < 256 := (i 1).isLt
  obtain ⟨t, ht⟩ : ∃ t : Fin cfg1.N, t.val = (i 0).val / 5000 :=
    ⟨⟨(i 0).val / 5000, lt_of_lt_of_eq (by omega) N_1.symm⟩, rfl⟩
  obtain ⟨-, -, -, -, -, -, -, -, e0, e1⟩ := idx_facts1 t
  refine ⟨t, flush1_4 t, ?_⟩
  rw [mem_blk1]
  intro a
  match a with
  | ⟨0, _⟩ =>
    show win1_4.index t (0 : Fin 2) * 5000 ≤ (i 0).val ∧ (i 0).val < win1_4.index t (0 : Fin 2) * 5000 + 5000
    rw [e0, ht]; omega
  | ⟨1, _⟩ =>
    show win1_4.index t (1 : Fin 2) * 256 ≤ (i 1).val ∧ (i 1).val < win1_4.index t (1 : Fin 2) * 256 + 256
    rw [e1]; omega

end Blocks

/-- After the second region its output array is the second dense stage of the four arrays it reads. -/
theorem region1 (V : (c : Dev nD) → (b : Ref sig .tc) → Buf (Elt Ideal) ((c : Thread nD τ).loc b)) (c : Dev nD) :
    (dat1 (F := Ideal) V c).arrAt 4 cfg1.N = Cert.Gcn.dense1 (V c main_v26) (V c main_arg4) (V c main_v15) (V c main_v27) :=
  (dat1 (F := Ideal) V c).arrAt_eq_of_cover 4
    (Cert.Gcn.dense1 (V c main_v26) (V c main_arg4) (V c main_v15) (V c main_v27))
    (fun t _ => flushed1_eq V c t) cover1

end Cert.KernelIdeal.RegionValue

end
-- ==== Proof.RegionValue.lean ====
/-
  What each of the two kernel regions leaves in its output array, as one function of the arrays it reads.

  At grid point t the first region reads rows 5000 t … 5000 t + 4999 of the array x and of the scaling column dv and
  the whole weight matrix w, and writes rows 5000 t … 5000 t + 4999 of its output: entry (p, q) is
  (Σ_k x[p, k] · w[k, q]) · dv[p]. The ten row blocks cover the output. The second region is in the sibling module.
-/
import proofs.«109636_j69595650065050_2_alg».proof.Proof.RegionValue1
import proofs.«109636_j69595650065050_2_alg».proof.Proof.Gen.KernelIdeal.Frame
import proofs.«109636_j69595650065050_2_alg».proof.Proof.Spec
import proofs.«109636_j69595650065050_2_alg».proof.Proof.LibMatmul
import proofs.«109636_j69595650065050_2_alg».proof.Proof.LibUnitAxis
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat Cfg Window)
open Cert.Bridge.LibMatmul Cert.Lib.UnitAxis

/-- The first kernel's stored block at (r, q): row r of the first block times column q of the second, scaled by the
    column block's entry of row r. -/
theorem pay0_apply (x0 : Vec Ideal S5000x256 .f32) (x1 : Vec Ideal S256x256 .f32) (x2 : Vec Ideal S5000x1 .f32)
    (r : Fin 5000) (q : Fin 256) :
    k0_pay1 x0 x1 x2 (ix2 r q) = (∑ k : Fin 256, x0 (ix2 r k) * x1 (ix2 k q)) * x2 (ix2 r (0 : Fin 1)) := by
  unfold k0_pay1
  show FloatOps.matmul dot_S5000x256_S256x256_S5000x256_1_0_0_1_n_n none _ _ _ (ix2 r q) * broadcastTo S5000x256 _ _ (ix2 r q) = _
  rw [dot_eq_plain]
  refine congrArg₂ (· * ·) ((matmul_zero_apply none _ _ r q).trans rfl) ((broadcastTo_a1_ab_apply _ _ r q).trans ?_)
  rw [shapeCast_self]

section Blocks
variable (V : (c : Dev nD) → (b : Ref sig .tc) → Buf (Elt Ideal) ((c : Thread nD τ).loc b))

/-- The first region's block indices, decided over its ten points: the row-block windows sit at block (t, 0), the
    weight window at block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Block t of the first operand is its rows 5000 t … 5000 t + 4999. -/
theorem iblk0_0_apply (c : Dev nD) (t : Fin cfg0.N) (r : Fin 5000) (k : Fin 256) (p : Fin 50000)
    (hp : p.val = t.val * 5000 + r.val) :
    (iblk0 V c 0 t : Vec Ideal S5000x256 .f32) (ix2 r k) = (V c main_arg0 : S50000x256.Idx → Ideal .f32) (ix2 p k) := by
  obtain ⟨e0, e1, -⟩ := idx_facts0 t
  unfold iblk0
  rw [View.read_apply]
  show V c main_arg0 _ = V c main_arg0 _
  refine congrArg (V c main_arg0) (funext fun a => Fin.ext ?_)
  match a with
  | ⟨0, _⟩ => show win0_0.index t (0 : Fin 2) * 5000 + 1 * r.val = p.val; rw [e0, hp]; omega
  | ⟨1, _⟩ => show win0_0.index t (1 : Fin 2) * 256 + 1 * k.val = k.val; rw [e1]; omega

/-- The weight window's one block is the whole 256×256 operand. -/
theorem iblk0_1_apply (c : Dev nD) (t : Fin cfg0.N) (k q : Fin 256) :
    (iblk0 V c 1 t : Vec Ideal S256x256 .f32) (ix2 k q) = (V c main_arg2 : S256x256.Idx → Ideal .f32) (ix2 k q) := by
  obtain ⟨-, -, e0, e1, -⟩ := idx_facts0 t
  unfold iblk0
  rw [View.read_apply]
  show V c main_arg2 _ = V c main_arg2 _
  refine congrArg (V c main_arg2) (funext fun a => Fin.ext ?_)
  match a with
  | ⟨0, _⟩ => show win0_1.index t (0 : Fin 2) * 256 + 1 * k.val = k.val; rw [e0]; omega
  | ⟨1, _⟩ => show win0_1.index t (1 : Fin 2) * 256 + 1 * q.val = q.val; rw [e1]; omega

/-- Block t of the scaling column is its rows 5000 t … 5000 t + 4999. -/
theorem iblk0_2_apply (c : Dev nD) (t : Fin cfg0.N) (r : Fin 5000) (u : Fin 1) (p : Fin 50000)
    (hp : p.val = t.val * 5000 + r.val) :
    (iblk0 V c 2 t : Vec Ideal S5000x1 .f32) (ix2 r u) = (V c main_v15 : S50000x1.Idx → Ideal .f32) (ix2 p u) := by
  obtain ⟨-, -, -, -, e0, e1, -⟩ := idx_facts0 t
  unfold iblk0
  rw [View.read_apply]
  show V c main_v15 _ = V c main_v15 _
  refine congrArg (V c main_v15) (funext fun a => Fin.ext ?_)
  match a with
  | ⟨0, _⟩ => show win0_2.index t (0 : Fin 2) * 5000 + 1 * r.val = p.val; rw [e0, hp]; omega
  | ⟨1, _⟩ => show win0_2.index t (1 : Fin 2) * 1 + 1 * u.val = u.val; rw [e1]; omega

/-- What point t writes back is block t of the first dense stage of the whole operands. -/
theorem flushed0_eq (c : Dev nD) (t : Fin cfg0.N) :
    (dat0 (F := Ideal) V c).flushed 3 t
      = ((cfg0.win 3).blk t).view.read (Elt Ideal) (Cert.Gcn.dense0 (V c main_arg0) (V c main_arg2) (V c main_v15)) := by
  show (cfg0.win 3).cut (grid0.coords t) ((dat0 V c).after 3 t) = _
  rw [after0_3]
  unfold out0_3
  rw [View.canon_unit_zero hz]
  simp only [View.ld_unit_zero (S := S5000x256) hz, View.ld_unit_zero (S := S256x256) hz, View.ld_unit_zero (S := S5000x1) hz]
  obtain ⟨-, -, -, -, -, -, e0, e1⟩ := idx_facts0 t
  funext j
  have hr : (j 0).val < 5000 := (j 0).isLt
  have hq : (j 1).val < 256 := (j 1).isLt
  have ht : t.val < 10 := lt_of_lt_of_eq t.isLt N_0
  have hxj : (cfg0.win 3).xinj (grid0.coords t) j = ix2 (⟨(j 0).val, hr⟩ : Fin 5000) (⟨(j 1).val, hq⟩ : Fin 256) :=
    funext fun a => Fin.ext (by match a with | ⟨0, _⟩ => rfl | ⟨1, _⟩ => rfl)
  have hemb : ((cfg0.win 3).blk t).view.emb j
      = ix2 (⟨t.val * 5000 + (j 0).val, by omega⟩ : Fin 50000) (⟨(j 1).val, hq⟩ : Fin 256) :=
    funext fun a => Fin.ext (by
      match a with
      | ⟨0, _⟩ => show win0_3.index t (0 : Fin 2) * 5000 + 1 * (j 0).val = t.val * 5000 + (j 0).val; rw [e0]; omega
      | ⟨1, _⟩ => show win0_3.index t (1 : Fin 2) * 256 + 1 * (j 1).val = (j 1).val; rw [e1]; omega)
  show k0_pay1 (iblk0 V c 0 t) (iblk0 V c 1 t) (iblk0 V c 2 t) ((cfg0.win 3).xinj (grid0.coords t) j)
     = Cert.Gcn.dense0 (V c main_arg0) (V c main_arg2) (V c main_v15) (((cfg0.win 3).blk t).view.emb j)
  rw [hxj, hemb, Cert.Gcn.dense0_apply]
  refine (pay0_apply (iblk0 V c 0 t) (iblk0 V c 1 t) (iblk0 V c 2 t) _ _).trans ?_
  unfold Cert.Gcn.mm
  exact congrArg₂ (· * ·)
    (Finset.sum_congr rfl fun k _ => congrArg₂ (· * ·) (iblk0_0_apply V c t _ k _ rfl) (iblk0_1_apply V c t k _))
    (iblk0_2_apply V c t _ 0 _ rfl)

/-- An index of the output array is in point t's block iff each coordinate is in the block's range on its axis. -/
theorem mem_blk0 (t : Fin cfg0.N) (i : S50000x256.Idx) :
    i ∈ ((cfg0.win 3).blk t).view.set ↔ ∀ a : Fin 2, win0_3.index t a * S5000x256.size a ≤ (i a).val
      ∧ (i a).val < win0_3.index t a * S5000x256.size a + S5000x256.size a := by
  show i ∈ ((View.whole main_v16).slice (win0_3.rect t)).set ↔ _
  rw [View.set_slice_whole, Rect.mem_set_unit]
  exact Iff.rfl

/-- Row p of the output array is written by point p / 5000: the ten row blocks cover the array. -/
theorem cover0 (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  obtain ⟨t, ht⟩ : ∃ t : Fin cfg0.N, t.val = (i 0).val / 5000 :=
    ⟨⟨(i 0).val / 5000, lt_of_lt_of_eq (by omega) N_0.symm⟩, rfl⟩
  obtain ⟨-, -, -, -, -, -, e0, e1⟩ := idx_facts0 t
  refine ⟨t, flush0_3 t, ?_⟩
  rw [mem_blk0]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 256 ≤ (i 1).val ∧ (i 1).val < win0_3.index t (1 : Fin 2) * 256 + 256
    rw [e1]; omega

end Blocks

/-- After the first region its output array is the first dense stage of the three arrays it reads. -/
theorem region0 (V : (c : Dev nD) → (b : Ref sig .tc) → Buf (Elt Ideal) ((c : Thread nD τ).loc b)) (c : Dev nD) :
    (dat0 (F := Ideal) V c).arrAt 3 cfg0.N = Cert.Gcn.dense0 (V c main_arg0) (V c main_arg2) (V c main_v15) :=
  (dat0 (F := Ideal) V c).arrAt_eq_of_cover 3 (Cert.Gcn.dense0 (V c main_arg0) (V c main_arg2) (V c main_v15))
    (fun t _ => flushed0_eq V c t) cover0

end Cert.KernelIdeal.RegionValue

end
-- ==== Proof.KernelRun.lean ====
/-
  The kernel program's run with its result named: the six arguments end unchanged and the result array is
  `Cert.Gcn.kernelOut` of them.
-/
import proofs.«109636_j69595650065050_2_alg».proof.Proof.Gen.KernelIdeal.Frame
import proofs.«109636_j69595650065050_2_alg».proof.Proof.RegionValue
import proofs.«109636_j69595650065050_2_alg».proof.Proof.Spec
import Idealize.ShloMosaic.Lib.StableHlo.Run

set_option maxRecDepth 16384

noncomputable section

namespace Cert.KernelIdeal.KernelRun

open Cert.KernelIdeal Cert.KernelIdeal.Gen Idealize.ShloMosaic Idealize.ShloMosaic.TcCoe Idealize.SL.Sem
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

local notation "𝕄" => MT nD τ sig Unit (Elt Ideal) ℕ (UR sig nD τ) ℕ

/-! ## The run, with the result array named by the fold of buffer contents -/

set_option backward.isDefEq.respectTransparency.types false in
/-- Every weakly fair execution terminates with the result array at the last boundary's contents and the six
    arguments as launched. -/
theorem run_named (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v44) = W8 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v44 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

/-! ## The buffer contents at each boundary, read back to the launch

  Walking the fold backwards: a host stretch rewrites each operation's result to its function of the previous
  boundary's contents; a region leaves its output array at its dense stage and every other buffer as entered. -/

/-- The normaliser as a [N, 1] column. -/
def dvK (ei : IVec Cert.Gcn.S2G 32) : FVec Ideal Cert.Gcn.SN1 .f32 := shapeCast Cert.Gcn.SN1 (Cert.Gcn.dinvOf ei) (by decide)
/-- A bias vector as a [1, D] row. -/
def rowK (b : FVec Ideal Cert.Gcn.SD .f32) : FVec Ideal Cert.Gcn.S1D .f32 := shapeCast Cert.Gcn.S1D b (by decide)
/-- The plain aggregation along the edge lists of `ei`. -/
def aggE (ei : IVec Cert.Gcn.S2G 32) (h : FVec Ideal Cert.Gcn.SND .f32) : FVec Ideal Cert.Gcn.SND .f32 :=
  Cert.Gcn.aggK (Cert.Gcn.srcOf ei) (Cert.Gcn.dstOf ei) h

section Value

variable (m : (ℓ : Loc nD τ sig) → Buf (Elt Ideal) ℓ) (ρ : Dev nD → PrngReg) (c : Dev nD)

/-! ### At the entry of the first region -/

theorem W3_arg0 : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results_simp
theorem W3_arg2 : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  after_results_simp
theorem W3_arg3 : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results_simp
theorem W3_arg4 : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results_simp
theorem W3_arg5 : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results_simp
/-- The source list. -/
theorem W3_v5 : W3 m ρ c (Proc.devRef .tc main_v5) = Cert.Gcn.srcOf (m ((c : Thread nD τ).loc main_arg1)) := by
  show StableHlo.after hostOps0_2 (StableHlo.after hostOps0_1 (StableHlo.after hostOps0 (W0 m ρ c))) (Proc.devRef .tc main_v5) = _
  after_results
  rfl
/-- The destination list. -/
theorem W3_v6 : W3 m ρ c (Proc.devRef .tc main_v6) = Cert.Gcn.dstOf (m ((c : Thread nD τ).loc main_arg1)) := by
  show StableHlo.after hostOps0_2 (StableHlo.after hostOps0_1 (StableHlo.after hostOps0 (W0 m ρ c))) (Proc.devRef .tc main_v6) = _
  after_results
  rfl
set_option maxHeartbeats 1000000 in
/-- The normaliser column. -/
theorem W3_v15 : W3 m ρ c (Proc.devRef .tc main_v15) = dvK (m ((c : Thread nD τ).loc main_arg1)) := by
  show StableHlo.after hostOps0_2 (StableHlo.after hostOps0_1 (StableHlo.after hostOps0 (W0 m ρ c))) (Proc.devRef .tc main_v15) = _
  after_results_simp
  repeat (first
    | rw [StableHlo.nullary_result] | rw [StableHlo.unary_result] | rw [StableHlo.binary_result] | rw [StableHlo.ternary_result]
    | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  simp only [cast_eq]
  rfl

/-! ### At the exit of the first region -/

/-- The first region's output: the first dense stage. -/
theorem W4_v16 : W4 m ρ c (Proc.devRef .tc main_v16) = (Cert.Gcn.dense0 (m ((c : Thread nD τ).loc main_arg0)) (m ((c : Thread nD τ).loc main_arg2)) (dvK (m ((c : Thread nD τ).loc main_arg1)))) := by
  refine (W4_arr m ρ c 3).trans ((RegionValue.region0 (V3 m ρ) c).trans ?_)
  exact congr (congr (congrArg Cert.Gcn.dense0 (W3_arg0 m ρ c)) (W3_arg2 m ρ c)) (W3_v15 m ρ c)
theorem W4_v5 : W4 m ρ c (Proc.devRef .tc main_v5) = Cert.Gcn.srcOf (m ((c : Thread nD τ).loc main_arg1)) :=
  (W4_of_ne m ρ c main_v5 (by decide)).trans (W3_v5 m ρ c)
theorem W4_v6 : W4 m ρ c (Proc.devRef .tc main_v6) = Cert.Gcn.dstOf (m ((c : Thread nD τ).loc main_arg1)) :=
  (W4_of_ne m ρ c main_v6 (by decide)).trans (W3_v6 m ρ c)
theorem W4_v15 : W4 m ρ c (Proc.devRef .tc main_v15) = dvK (m ((c : Thread nD τ).loc main_arg1)) :=
  (W4_arr m ρ c 2).trans (((dat0 (V3 m ρ) c).arrAt_in 2 rfl _).trans ((A_eq0 (V3 m ρ) c 2).trans (W3_v15 m ρ c)))
theorem W4_arg3 : W4 m ρ c (Proc.devRef .tc main_arg3) = (m ((c : Thread nD τ).loc main_arg3)) :=
  (W4_of_ne m ρ c main_arg3 (by decide)).trans (W3_arg3 m ρ c)
theorem W4_arg4 : W4 m ρ c (Proc.devRef .tc main_arg4) = (m ((c : Thread nD τ).loc main_arg4)) :=
  (W4_of_ne m ρ c main_arg4 (by decide)).trans (W3_arg4 m ρ c)
theorem W4_arg5 : W4 m ρ c (Proc.devRef .tc main_arg5) = (m ((c : Thread nD τ).loc main_arg5)) :=
  (W4_of_ne m ρ c main_arg5 (by decide)).trans (W3_arg5 m ρ c)

/-! ### At the entry of the second region -/

set_option maxHeartbeats 1000000 in
/-- The first aggregation. -/
theorem W5_v26 : W5 m ρ c (Proc.devRef .tc main_v26) = (aggE (m ((c : Thread nD τ).loc main_arg1)) (Cert.Gcn.dense0 (m ((c : Thread nD τ).loc main_arg0)) (m ((c : Thread nD τ).loc main_arg2)) (dvK (m ((c : Thread nD τ).loc main_arg1))))) := by
  show StableHlo.after hostOps1 (W4 m ρ c) (Proc.devRef .tc main_v26) = _
  after_results_simp
  rw [W4_v5 m ρ c, W4_v6 m ρ c, W4_v16 m ρ c]
  rfl
/-- The first bias as a row. -/
theorem W5_v27 : W5 m ρ c (Proc.devRef .tc main_v27) = (rowK (m ((c : Thread nD τ).loc main_arg3))) := by
  show StableHlo.after hostOps1 (W4 m ρ c) (Proc.devRef .tc main_v27) = _
  after_results_simp
  rw [W4_arg3 m ρ c]
  rfl
theorem W5_arg4 : W5 m ρ c (Proc.devRef .tc main_arg4) = (m ((c : Thread nD τ).loc main_arg4)) := by
  show StableHlo.after hostOps1 (W4 m ρ c) (Proc.devRef .tc main_arg4) = _
  after_results_simp
  exact W4_arg4 m ρ c
theorem W5_arg5 : W5 m ρ c (Proc.devRef .tc main_arg5) = (m ((c : Thread nD τ).loc main_arg5)) := by
  show StableHlo.after hostOps1 (W4 m ρ c) (Proc.devRef .tc main_arg5) = _
  after_results_simp
  exact W4_arg5 m ρ c
theorem W5_v15 : W5 m ρ c (Proc.devRef .tc main_v15) = dvK (m ((c : Thread nD τ).loc main_arg1)) := by
  show StableHlo.after hostOps1 (W4 m ρ c) (Proc.devRef .tc main_v15) = _
  after_results_simp
  exact W4_v15 m ρ c
theorem W5_v5 : W5 m ρ c (Proc.devRef .tc main_v5) = Cert.Gcn.srcOf (m ((c : Thread nD τ).loc main_arg1)) := by
  show StableHlo.after hostOps1 (W4 m ρ c) (Proc.devRef .tc main_v5) = _
  after_results_simp
  exact W4_v5 m ρ c
theorem W5_v6 : W5 m ρ c (Proc.devRef .tc main_v6) = Cert.Gcn.dstOf (m ((c : Thread nD τ).loc main_arg1)) := by
  show StableHlo.after hostOps1 (W4 m ρ c) (Proc.devRef .tc main_v6) = _
  after_results_simp
  exact W4_v6 m ρ c

/-! ### At the exit of the second region -/

/-- The second region's output: the second dense stage. -/
theorem W6_v28 : W6 m ρ c (Proc.devRef .tc main_v28) = (Cert.Gcn.dense1 (aggE (m ((c : Thread nD τ).loc main_arg1)) (Cert.Gcn.dense0 (m ((c : Thread nD τ).loc main_arg0)) (m ((c : Thread nD τ).loc main_arg2)) (dvK (m ((c : Thread nD τ).loc main_arg1))))) (m ((c : Thread nD τ).loc main_arg4)) (dvK (m ((c : Thread nD τ).loc main_arg1))) (rowK (m ((c : Thread nD τ).loc main_arg3)))) := by
  refine (W6_arr m ρ c 4).trans ((RegionValue.region1 (V5 m ρ) c).trans ?_)
  exact congr (congr (congr (congrArg Cert.Gcn.dense1 (W5_v26 m ρ c)) (W5_arg4 m ρ c)) (W5_v15 m ρ c)) (W5_v27 m ρ c)
theorem W6_v5 : W6 m ρ c (Proc.devRef .tc main_v5) = Cert.Gcn.srcOf (m ((c : Thread nD τ).loc main_arg1)) :=
  (W6_of_ne m ρ c main_v5 (by decide)).trans (W5_v5 m ρ c)
theorem W6_v6 : W6 m ρ c (Proc.devRef .tc main_v6) = Cert.Gcn.dstOf (m ((c : Thread nD τ).loc main_arg1)) :=
  (W6_of_ne m ρ c main_v6 (by decide)).trans (W5_v6 m ρ c)
theorem W6_v15 : W6 m ρ c (Proc.devRef .tc main_v15) = dvK (m ((c : Thread nD τ).loc main_arg1)) :=
  (W6_arr m ρ c 2).trans (((dat1 (V5 m ρ) c).arrAt_in 2 rfl _).trans ((A_eq1 (V5 m ρ) c 2).trans (W5_v15 m ρ c)))
theorem W6_arg5 : W6 m ρ c (Proc.devRef .tc main_arg5) = (m ((c : Thread nD τ).loc main_arg5)) :=
  (W6_of_ne m ρ c main_arg5 (by decide)).trans (W5_arg5 m ρ c)

/-! ### At the return -/

set_option maxHeartbeats 1000000 in
/-- The result array is `kernelOut` of the six arguments. -/
theorem value : W8 m ρ c (Proc.devRef .tc main_v44) = Cert.Gcn.kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2_1 (StableHlo.after hostOps2 (W6 m ρ c)) (Proc.devRef .tc main_v44) = _
  after_results_simp
  simp only [cast_eq]
  rw [W6_v5 m ρ c, W6_v6 m ρ c, W6_v15 m ρ c, W6_v28 m ρ c, W6_arg5 m ρ c]
  rfl

end Value

/-- Every weakly fair execution of the kernel program terminates, nothing faulting, with the result array at
    `kernelOut` of the launch contents of the six arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v44) = Cert.Gcn.kernelOut (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  exact (θ_run defs _ _).mono (fun r h c => ⟨(h c).1.trans (value m ρ c), (h c).2⟩) (run_named m ρ)

end Cert.KernelIdeal.KernelRun

end
-- ==== Proof.LibRowGather.lean ====
/-
  A row gather read at an index. For an operand of N rows and C columns and one start index per result row
  (start indices of shape [E, 1]), the gather that collapses the row axis and keeps whole rows (what x[idx] lowers
  to for a two-dimensional x) reads, at result entry (e, q), the operand's entry (r, q), where r is the start index
  of row e read as a signed integer and clamped into [0, N - 1]. Any extents, any element type, any index width.
-/
import Idealize.ShloMosaic.PureOps.ShapeOps
import Idealize.ShloMosaic.Lib.ValueIdx

noncomputable section

namespace Cert.Bridge.RowGather

open Idealize.ShloMosaic Idealize.ShloMosaic.ValueIdx

variable {α : Type}

/-- The dimension numbers of a row gather: operand [N, C], start indices [E, 1], result [E, C]; the row axis is
    collapsed and addressed by the one component of the start index, the column axis is kept whole. -/
abbrev rowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a start index addresses: the index read signed, clamped into [0, N - 1]. -/
def rowOf {N w : Nat} (hN : 0 < N) (v : BitVec w) : Fin N := ⟨min v.toInt.toNat (N - 1), by omega⟩

/-- The gather at (e, q) is the operand at (the clamped start index of row e, q). -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowDims N C E wf) x idx (ix2 e q) = x (ix2 (rowOf hN (idx (ix2 e (0 : Fin 1)))) q) := by
  have hne : ¬ ((1 : Fin 2) = 0) := by decide
  -- the row coordinate: the clamped start; no batching coordinate, no offset on a collapsed axis
  have h0 : ((rowDims N C E wf).operandIdx (ix2 e q) idx 0).val = min (idx (ix2 e (0 : Fin 1))).toInt.toNat (N - 1) := by
    show (rowDims N C E wf).start (ix2 e q) idx 0 + (rowDims N C E wf).batchCoord (ix2 e q) 0
        + (rowDims N C E wf).offCoord (ix2 e q) 0 = _
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    have hsi : (rowDims N C E wf).siIdx (ix2 e q) ⟨List.idxOf (0 : Fin 2) (rowDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  -- the column coordinate: no start (the axis is not addressed), no batching, the result's own column as offset
  have h1 : ((rowDims N C E wf).operandIdx (ix2 e q) idx 1).val = q.val := by
    show (rowDims N C E wf).start (ix2 e q) idx 1 + (rowDims N C E wf).batchCoord (ix2 e q) 1
        + (rowDims N C E wf).offCoord (ix2 e q) 1 = _
    rw [GatherDims.batchCoord_eq_zero _ _ _ List.not_mem_nil]
    unfold GatherDims.start
    rw [dif_neg (show (1 : Fin 2) ∉ (rowDims N C E wf).startIndexMap from
      fun h => hne (List.mem_singleton.mp h))]
    unfold GatherDims.offCoord
    rw [dif_pos (show (1 : Fin 2) ∈ (rowDims N C E wf).sKept from
      (GatherDims.mem_sKept _ _).mpr ⟨fun h => hne (List.mem_singleton.mp h), List.not_mem_nil⟩)]
    simp only [Nat.zero_add, Nat.add_zero]
    rfl
  unfold Host.gather
  congr 1
  funext a
  refine Fin.ext ?_
  match a with
  | ⟨0, _⟩ => exact h0
  | ⟨1, _⟩ => exact h1

end Cert.Bridge.RowGather

end
-- ==== Proof.LibScaleSum.lean ====
/-
  A non-negative finite factor moves across a finite sum on the extended reals.

  Multiplication on the extended reals does not distribute over addition in general (⊤ + ⊥ = ⊥ breaks it for factors of
  mixed sign), but for a factor `c` with `0 ≤ c` and `c ≠ ⊤` it does, at every pair of summands, infinite ones
  included. Hence `(∑ f) * c = ∑ (f * c)` over any finite index set, and a bilinear sum whose left factors are each
  scaled by `c` is the unscaled sum times `c`: `∑ (a i * c) * b i = (∑ a i * b i) * c`. No summand need be finite.

  The f32 word `0x3E800000` denotes the real 1/4, which is such a factor.
-/
import Idealize.ShloMosaic.PureOps.Ideal

noncomputable section

namespace Cert.LibScaleSum

open Idealize.ShloMosaic

/-- A finite sum times a non-negative finite factor is the sum of the scaled terms, on all extended reals. -/
theorem sum_mul_of_nonneg_of_ne_top {ι : Type*} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- Scaling every left factor of a bilinear sum by such a `c` scales the sum: `∑ (a i * c) * b i = (∑ a i * b i) * c`. -/
theorem sum_scaled_mul {ι : Type*} (s : Finset ι) (a b : ι → EReal) {c : EReal} (h0 : 0 ≤ c) (ht : c ≠ ⊤) :
    ∑ i ∈ s, (a i * c) * b i = (∑ i ∈ s, a i * b i) * c := by
  rw [sum_mul_of_nonneg_of_ne_top s _ h0 ht]
  exact Finset.sum_congr rfl fun i _ => mul_right_comm _ _ _

/-- The f32 word `0x3E800000` denotes the real 1/4. -/
theorem ofBits_quarter : Ideal.ofBits .f32 0x3E800000#32 = ((1 / 4 : ℝ) : EReal) := by
  simp [Ideal.ofBits, Ideal.ieee, -EReal.coe_mul]; norm_num

theorem quarter_nonneg : (0 : EReal) ≤ Ideal.ofBits .f32 0x3E800000#32 := by
  rw [ofBits_quarter]; exact_mod_cast (by norm_num : (0 : ℝ) ≤ 1 / 4)

theorem quarter_ne_top : Ideal.ofBits .f32 0x3E800000#32 ≠ ⊤ := by
  rw [ofBits_quarter]; exact EReal.coe_ne_top _

end Cert.LibScaleSum

end
-- ==== Proof.Law.lean ====
/-
  The aggregation law: scaling rows before and after a plain aggregation is the weighted aggregation.
-/
import proofs.«109636_j69595650065050_2_alg».proof.Proof.Spec
import proofs.«109636_j69595650065050_2_alg».proof.Proof.LibRowGather
import proofs.«109636_j69595650065050_2_alg».proof.Proof.LibScaleSum

noncomputable section

open scoped BigOperators

namespace Cert.Gcn

open Idealize.ShloMosaic Idealize.ShloMosaic.ValueIdx

/-! ## The normaliser -/

/-- The zero word spread over the nodes reads zero. -/
theorem zeroSN_apply (v : SN.Idx) :
    broadcastInDim SN ![] (by decide) (constant (F := Ideal) S0 .f32 0x00000000#32) v = 0 := by
  show FloatOps.ofBits (F := Ideal) .f32 0x00000000#32 = 0
  rw [Ideal.ofBits_def, Ideal.ofBits_zero_f32]

/-- The same with the zero word passed through the identity. -/
theorem zeroSN_id_apply (v : SN.Idx) :
    broadcastInDim SN ![] (by decide) (id (constant (F := Ideal) S0 .f32 0x00000000#32)) v = 0 := zeroSN_apply v

/-- The inverse square root of a positive extended real is a non-negative real (zero at ⊤). -/
theorem rsqrt_real_of_pos (x : EReal) (hx : 0 < x) : ∃ r : ℝ, 0 ≤ r ∧ Ideal.rsqrt x = ((r : ℝ) : EReal) := by
  induction x using EReal.rec with
  | bot => exact absurd hx (by simp)
  | top => exact ⟨0, le_refl _, by simp⟩
  | coe r =>
    have hr : 0 < r := by exact_mod_cast hx
    refine ⟨(Real.sqrt r)⁻¹, inv_nonneg.mpr (Real.sqrt_nonneg r), ?_⟩
    rw [Ideal.rsqrt_coe, if_neg (not_lt.mpr hr.le), if_neg hr.ne']

/-- "The inverse square root where positive, else zero" is a non-negative real at every extended real. -/
theorem select_rsqrt_real (x : EReal) :
    ∃ r : ℝ, 0 ≤ r ∧ Scalar.select (Ideal.cmp .ogt x 0) (Ideal.rsqrt x) (0 : EReal) = ((r : ℝ) : EReal) := by
  by_cases hx : 0 < x
  · have hc : Ideal.cmp .ogt x 0 = 1#1 := by simp [Ideal.cmp, hx]
    rw [hc, select_one]; exact rsqrt_real_of_pos x hx
  · have hc : Ideal.cmp .ogt x 0 = 0#1 := by simp [Ideal.cmp, hx]
    rw [hc, select_zero]; exact ⟨0, le_refl _, by simp⟩

/-- "The inverse square root where positive, else zero" of any array of extended reals is a non-negative real at every
    node. -/
theorem dinvArr_real (d : FVec Ideal SN .f32) (v : SN.Idx) :
    ∃ r : ℝ, 0 ≤ r ∧
      select (cmpf .ogt d (broadcastInDim SN ![] (by decide) (constant (F := Ideal) S0 .f32 0x00000000#32)))
        (Host.rsqrt (F := Ideal) d)
        (broadcastInDim SN ![] (by decide) (id (constant (F := Ideal) S0 .f32 0x00000000#32))) v = ((r : ℝ) : EReal) := by
  rw [select_apply, cmpf_apply, Ideal.cmpf_def]
  unfold Host.rsqrt
  rw [Ideal.hostUnary_rsqrt_def, zeroSN_apply, zeroSN_id_apply]
  exact select_rsqrt_real _

/-! ## Reading the index arrays -/

/-- An index list as a column reads the list at the row. -/
theorem toCol_apply (v : IVec SE 32) (e : Fin 450000) (c : Fin 1) : toCol v (ix2 e c) = v (ix1 e) := by
  unfold toCol broadcastInDim
  congr 1
  funext a
  match a with
  | ⟨0, _⟩ => rfl

/-- A per-edge factor spread over the [E, D] array reads the factor at the edge. -/
theorem spread_apply (w : FVec Ideal SE .f32) (e : Fin 450000) (q : Fin 256) :
    broadcastInDim SED ![0, 1] (by decide) (broadcastInDim SE1 ![0] (by decide) w) (ix2 e q) = w (ix1 e) := by
  unfold broadcastInDim
  congr 1
  funext a
  match a with
  | ⟨0, _⟩ => rfl

/-- A non-negative index is its own wrapped index. -/
theorem wrapIdx_of_nonneg (v : IVec SE 32) (e : Fin 450000) (h0 : 0 ≤ (v (ix1 e)).toInt) :
    wrapIdx v (ix1 e) = v (ix1 e) := by
  show Scalar.select (IntOp.cmpi .slt (v (ix1 e)) 0#32) (IntOp.addi (v (ix1 e)) 50000#32) (v (ix1 e)) = _
  have hc : IntOp.cmpi .slt (v (ix1 e)) 0#32 = 0#1 := by
    have : ¬ (v (ix1 e)).toInt < 0 := not_lt.mpr h0
    simp [IntOp.cmpi, BitVec.slt, this]
  rw [hc, select_zero]

/-- The entry gather at e is the operand at the clamped start index of row e. -/
theorem gather_entries_apply (x : FVec Ideal SN .f32) (idx : IVec SE1 32) (e : Fin 450000) :
    Host.gather gath1 x idx (ix1 e)
      = x (ix1 (Cert.Bridge.RowGather.rowOf (N := 50000) (by decide) (idx (ix2 e (0 : Fin 1))))) := by
  unfold Host.gather
  congr 1
  funext a
  obtain rfl : a = 0 := Subsingleton.elim _ _
  refine Fin.ext ?_
  show gath1.start (ix1 e) idx 0 + gath1.batchCoord (ix1 e) 0 + gath1.offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gath1.startIndexMap from List.mem_singleton.mpr rfl)]
  have hsi : gath1.siIdx (ix1 e) ⟨List.idxOf (0 : Fin 1) gath1.startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- An update row that lands in the operand lands at the row its index names: the index, read signed, is that row. -/
theorem scat2_row {idx : IVec SE1 32} {j : SED.Idx} {i : SND.Idx} (hj : scat2.resultIdx? j idx = some i) :
    (idx (ix2 (j 0 : Fin 450000) (0 : Fin 1))).toInt = (((i 0 : Fin 50000).val : Nat) : Int) := by
  have hs : scat2.start j idx 0 = (idx (ix2 (j 0 : Fin 450000) (0 : Fin 1))).toInt := by
    unfold ScatterDims.start
    rw [dif_pos (show (0 : Fin 2) ∈ scat2.scatterDimsToOperandDims from List.mem_singleton.mpr rfl)]
    have hsi : scat2.siIdx j ⟨List.idxOf (0 : Fin 2) scat2.scatterDimsToOperandDims,
        List.idxOf_lt_length_iff.2 (List.mem_singleton.mpr rfl)⟩ = ix2 (j 0 : Fin 450000) (0 : Fin 1) := by
      funext b; refine Fin.ext ?_
      match b with
      | ⟨0, _⟩ => rfl
      | ⟨1, _⟩ => rfl
    rw [hsi]
    rfl
  have hw : scat2.window j 0 = 0 := by
    unfold ScatterDims.window
    rw [dif_neg (show (0 : Fin 2) ∉ scat2.sKept by decide)]
  unfold ScatterDims.resultIdx? at hj
  split at hj
  · rename_i hall
    have h1 := congrArg Fin.val (congrFun (Option.some.inj hj) 0)
    have h2 := (hall 0).1
    rw [hs, hw] at h2
    simp only [hs, hw] at h1
    omega
  · exact absurd hj (by simp)

/-! ## The accumulating scatter at an index -/

/-- The accumulating scatter at an index: the operand's entry plus the sum of the updates that land there. -/
theorem scatterAdd_apply {s si u : Shape} {w : Nat} (d : ScatterDims s si u) (x : FVec Ideal s .f32) (idx : IVec si w)
    (upd : FVec Ideal u .f32) (i : s.Idx) :
    Host.scatterAdd (F := Ideal) d x idx upd i
      = x i + ∑ j ∈ Finset.univ.filter (fun j => d.resultIdx? j idx = some i), upd j := rfl

/-- The zero array reads zero. -/
theorem zerosND_apply (i : SND.Idx) : zerosND i = 0 := by
  show FloatOps.ofBits (F := Ideal) .f32 0x00000000#32 = 0
  rw [Ideal.ofBits_def, Ideal.ofBits_zero_f32]

/-! ## The two theorems -/

/-- The normaliser is a non-negative real at every node. -/
theorem dinvOf_real (ei : IVec S2G 32) (v : SN.Idx) : ∃ r : ℝ, 0 ≤ r ∧ dinvOf ei v = ((r : ℝ) : EReal) :=
  dinvArr_real (degOf ei) v

/-- With a normaliser that is a non-negative real at every node: scale the rows of `h`, aggregate, scale the rows of the
    sum — that is the aggregation of `h` weighted edge by edge with dinv[src e] · dinv[dst e]. -/
theorem agg_law (src dst : IVec SE 32) (dinv : FVec Ideal SN .f32) (h : FVec Ideal SND .f32)
    (hd : ∀ v, ∃ r : ℝ, 0 ≤ r ∧ dinv v = ((r : ℝ) : EReal)) :
    scaleRows (aggK src dst (scaleRows h dinv)) dinv = aggR src dst dinv h := by
  funext i
  obtain ⟨p, q, rfl⟩ : ∃ (p : Fin 50000) (q : Fin 256), i = ix2 p q := ⟨i 0, i 1, eq_ix2 i⟩
  rw [scaleRows_apply]
  obtain ⟨r, hr0, hr⟩ := hd (ix1 p)
  have h0 : (0 : EReal) ≤ dinv (ix1 p) := by rw [hr]; exact_mod_cast hr0
  have ht : dinv (ix1 p) ≠ ⊤ := by rw [hr]; exact EReal.coe_ne_top _
  have hz : zerosND (ix2 p q) = 0 := zerosND_apply _
  unfold aggK aggR
  rw [scatterAdd_apply, scatterAdd_apply, hz, zero_add, zero_add, Cert.LibScaleSum.sum_mul_of_nonneg_of_ne_top _ _ h0 ht]
  refine Finset.sum_congr rfl fun j hj => ?_
  have hj' := (Finset.mem_filter.mp hj).2
  obtain ⟨e, q', rfl⟩ : ∃ (e : Fin 450000) (q' : Fin 256), j = ix2 e q' := ⟨j 0, j 1, eq_ix2 j⟩
  -- the edge's destination index, read signed, is the row p
  have hrow : ((toCol dst) (ix2 e (0 : Fin 1))).toInt = ((p.val : Nat) : Int) := scat2_row hj'
  rw [toCol_apply] at hrow
  have hdst : Cert.Bridge.RowGather.rowOf (N := 50000) (by decide) ((toCol (wrapIdx dst)) (ix2 e (0 : Fin 1))) = p := by
    rw [toCol_apply, wrapIdx_of_nonneg dst e (by rw [hrow]; exact Int.natCast_nonneg _)]
    refine Fin.ext ?_
    show min (dst (ix1 e)).toInt.toNat (50000 - 1) = p.val
    rw [hrow]
    have := p.isLt
    omega
  have hg2 : ∀ x : FVec Ideal SND .f32, Host.gather gath2 x (toCol (wrapIdx src)) (ix2 e q')
      = x (ix2 (Cert.Bridge.RowGather.rowOf (N := 50000) (by decide) ((toCol (wrapIdx src)) (ix2 e (0 : Fin 1)))) q') :=
    fun x => Cert.Bridge.RowGather.gather_rows_apply (N := 50000) (C := 256) (E := 450000) (by decide) (by decide) x _ e q'
  rw [hg2, scaleRows_apply, mulf_apply, hg2, spread_apply]
  unfold edgeNorm
  rw [mulf_apply, gather_entries_apply, gather_entries_apply, hdst]
  exact mul_assoc _ _ _

end Cert.Gcn

end
-- ==== Proof.Bridge.lean ====
/-
  The two programs' results are one function of the six arguments.

  Write dinv for the degree normaliser, a non-negative real at every node, and A for the plain aggregation over the
  edges. The kernel program's first dense stage is the matrix product x · W1 with row p scaled by dinv[p]; by the
  aggregation law, aggregating that and scaling row v of the sum by dinv[v] is the aggregation weighted edge by edge
  with dinv[src e] · dinv[dst e], which is what the reference program forms. The second dense stage takes that weighted
  sum plus the bias, clamped at zero — the reference program's first layer — as the left operand of its product, and
  scales the rows again; the closing host operations scale the rows of the second aggregation, add the bias and clamp.
  So each program computes, twice, clamp (weighted aggregation of (input · W) + bias).
-/
import proofs.«109636_j69595650065050_2_alg».proof.Proof.Spec
import proofs.«109636_j69595650065050_2_alg».proof.Proof.Law
import proofs.«109636_j69595650065050_2_alg».proof.Proof.LibMatmul
import proofs.«109636_j69595650065050_2_alg».proof.Proof.LibUnitAxis
import Idealize.ShloMosaic.Lib.Pipeline.Value
import Idealize.ShloMosaic.Lib.ValueLayout
import Idealize.ShloMosaic.Lib.IdealHost
import Idealize.ShloMosaic.PureOps.Ideal.Laws

noncomputable section

open scoped BigOperators

namespace Cert.Gcn

open Idealize.ShloMosaic Idealize.ShloMosaic.ValueIdx

/-! ## The layout operations read at an entry -/

/-- A [50000, 1] column spread over the 256 columns reads its row's entry. -/
theorem colBcast_apply (dv : FVec Ideal SN1 .f32) (h : SN1.BroadcastsInDim SND ![0, 1]) (p : Fin 50000) (q : Fin 256) :
    broadcastInDim SND ![0, 1] h dv (ix2 p q) = dv (ix2 p (0 : Fin 1)) :=
  broadcastInDim_apply _ h dv (ix2 p q) (ix2 p (0 : Fin 1)) fun a => by
    match a with
    | ⟨0, _⟩ => rfl
    | ⟨1, _⟩ => rfl

/-- A length-256 vector made a [1, 256] row and spread over the 50000 rows reads its column's entry. -/
theorem rowBcast_apply (b : FVec Ideal SD .f32) (h1 : SD.BroadcastsInDim S1D ![1]) (h2 : S1D.BroadcastsInDim SND ![0, 1])
    (p : Fin 50000) (q : Fin 256) :
    broadcastInDim SND ![0, 1] h2 (broadcastInDim S1D ![1] h1 b) (ix2 p q) = b (ix1 q) :=
  (broadcastInDim_apply _ h2 _ (ix2 p q) (ix2 (0 : Fin 1) q) fun a => by
    match a with
    | ⟨0, _⟩ => rfl
    | ⟨1, _⟩ => rfl).trans
  (broadcastInDim_apply _ h1 b (ix2 (0 : Fin 1) q) (ix1 q) fun a => by
    match a with
    | ⟨0, _⟩ => rfl)

/-- The zero array reads zero. -/
theorem zeros_apply (h : S0.BroadcastsInDim SND ![]) (i : SND.Idx) :
    broadcastInDim SND ![] h (constant (F := Ideal) S0 .f32 0x00000000#32) i = 0 :=
  (broadcastInDim_scalar_apply h _ i).trans Ideal.ofBits_zero_f32

/-- The normaliser as a [50000, 1] column reads the normaliser. -/
theorem dvCol_apply (dinv : FVec Ideal SN .f32) (h : SN.ShapeCasts SN1) (p : Fin 50000) :
    shapeCast SN1 dinv h (ix2 p (0 : Fin 1)) = dinv (ix1 p) :=
  Cert.Lib.UnitAxis.shapeCast_a_a1_apply dinv h p 0

/-- A bias as a [1, 256] row reads the bias. -/
theorem bRow_apply (b : FVec Ideal SD .f32) (h : SD.ShapeCasts S1D) (q : Fin 256) :
    shapeCast S1D b h (ix2 (0 : Fin 1) q) = b (ix1 q) :=
  shapeCast_a_1a_apply b h 0 q

/-- The host's matrix product at (p, q) is the sum over the contracted axis. -/
theorem dot_apply (x : FVec Ideal SND .f32) (w : FVec Ideal SDD .f32) (p : Fin 50000) (q : Fin 256) :
    Host.dotGeneral (F := Ideal) dotND none x w (ix2 p q) = mm x w p q :=
  Cert.Bridge.LibMatmul.dotGeneral_apply (M := 50000) (K := 256) (N := 256) none .single x w p q

/-! ## The stages -/

/-- The first dense stage is the matrix product with its rows scaled. -/
theorem dense0_eq (x : FVec Ideal SND .f32) (w : FVec Ideal SDD .f32) (dinv : FVec Ideal SN .f32) (h : SN.ShapeCasts SN1) :
    dense0 x w (shapeCast SN1 dinv h) = scaleRows (Host.dotGeneral (F := Ideal) dotND none x w) dinv := by
  funext i
  obtain ⟨p, q, rfl⟩ : ∃ (p : Fin 50000) (q : Fin 256), i = ix2 p q := ⟨i 0, i 1, eq_ix2 i⟩
  rw [dense0_apply, scaleRows_apply, dvCol_apply, dot_apply]

/-- The second dense stage is the first one applied to its clamped input. -/
theorem dense1_eq (a : FVec Ideal SND .f32) (w : FVec Ideal SDD .f32) (dinv : FVec Ideal SN .f32) (h : SN.ShapeCasts SN1)
    (b : FVec Ideal S1D .f32) :
    dense1 a w (shapeCast SN1 dinv h) b
      = scaleRows (Host.dotGeneral (F := Ideal) dotND none (act1 a (shapeCast SN1 dinv h) b) w) dinv :=
  dense0_eq (act1 a (shapeCast SN1 dinv h) b) w dinv h

/-- The clamped input of the second product, once the scaled aggregation is known to be `r`: `max (r + bias) 0`. -/
theorem act1_eq (a r : FVec Ideal SND .f32) (dinv : FVec Ideal SN .f32) (b : FVec Ideal SD .f32)
    (h : SN.ShapeCasts SN1) (hb : SD.ShapeCasts S1D) (h1 : SD.BroadcastsInDim S1D ![1]) (h2 : S1D.BroadcastsInDim SND ![0, 1])
    (h0 : S0.BroadcastsInDim SND ![]) (hr : scaleRows a dinv = r) :
    act1 a (shapeCast SN1 dinv h) (shapeCast S1D b hb)
      = maximumf (addf r (broadcastInDim SND ![0, 1] h2 (broadcastInDim S1D ![1] h1 b)))
          (broadcastInDim SND ![] h0 (constant (F := Ideal) S0 .f32 0x00000000#32)) := by
  funext i
  obtain ⟨p, q, rfl⟩ : ∃ (p : Fin 50000) (q : Fin 256), i = ix2 p q := ⟨i 0, i 1, eq_ix2 i⟩
  rw [act1_apply, dvCol_apply, bRow_apply, ← scaleRows_apply, hr]
  show _ = max (r (ix2 p q) + broadcastInDim SND ![0, 1] h2 (broadcastInDim S1D ![1] h1 b) (ix2 p q))
    (broadcastInDim SND ![] h0 (constant (F := Ideal) S0 .f32 0x00000000#32) (ix2 p q))
  rw [rowBcast_apply, zeros_apply]

/-- The closing scale: the normaliser column spread over the columns, times the aggregation of a row-scaled array, is
    the weighted aggregation. -/
theorem scaled_agg_eq (src dst : IVec SE 32) (dinv : FVec Ideal SN .f32) (H : FVec Ideal SND .f32)
    (hd : ∀ v, ∃ r : ℝ, 0 ≤ r ∧ dinv v = ((r : ℝ) : EReal)) (h : SN.ShapeCasts SN1) (hc : SN1.BroadcastsInDim SND ![0, 1]) :
    mulf (broadcastInDim SND ![0, 1] hc (shapeCast SN1 dinv h)) (aggK src dst (scaleRows H dinv)) = aggR src dst dinv H := by
  rw [← agg_law src dst dinv H hd]
  funext i
  obtain ⟨p, q, rfl⟩ : ∃ (p : Fin 50000) (q : Fin 256), i = ix2 p q := ⟨i 0, i 1, eq_ix2 i⟩
  rw [scaleRows_apply]
  show broadcastInDim SND ![0, 1] hc (shapeCast SN1 dinv h) (ix2 p q) * aggK src dst (scaleRows H dinv) (ix2 p q) = _
  rw [colBcast_apply, dvCol_apply, mul_comm]

/-! ## The two results -/

theorem kernelOut_eq_refOut (x : FVec Ideal SND .f32) (ei : IVec S2G 32) (w1 : FVec Ideal SDD .f32) (b1 : FVec Ideal SD .f32)
    (w2 : FVec Ideal SDD .f32) (b2 : FVec Ideal SD .f32) :
    kernelOut x ei w1 b1 w2 b2 = refOut x ei w1 b1 w2 b2 := by
  have hd := dinvOf_real ei
  unfold kernelOut refOut refLayer
  dsimp only
  rw [dense0_eq, dense1_eq,
    act1_eq _ _ (dinvOf ei) b1 _ _ _ _ _ (agg_law (srcOf ei) (dstOf ei) (dinvOf ei) _ hd),
    scaled_agg_eq _ _ _ _ hd]

end Cert.Gcn

end
-- ==== Proof.lean ====
/-
  Two layers of graph convolution on 50000 nodes with 256 features over 450000 edges (the given ones and one self loop
  per node). Each layer is a dense transform h = input · W followed by the normalised sum over incoming edges
      out[v] = Σ_{e : dst e = v} h[src e] · dinv[src e] · dinv[v] + bias,   clamped at zero,
  with dinv[v] the inverse square root of node v's in-degree. The kernel program applies the two dinv factors around
  the sum (the rows of h are scaled inside the matrix-product kernels, the rows of the sum afterwards; the second
  kernel also folds the first layer's bias and clamp into its input); the reference program weights every edge's
  message by dinv[src e] · dinv[dst e]. On the extended reals the two agree because dinv[v] is a non-negative real
  number, and such a factor moves across a finite sum whatever the summands are: no finiteness of the inputs is used.
  The matrix products agree as plain sums over the contracted axis; a change of float format is the identity.

  The pieces: Spec (the functions), Law (the aggregation law), RegionValue and RegionValue1 (each kernel region's output array),
  KernelRun (the kernel program's run), RefRun and RefValue (the reference program's run and its result), Bridge
  (the two results are one function), and here the five claims.
-/
import proofs.«109636_j69595650065050_2_alg».proof.Defs
import proofs.«109636_j69595650065050_2_alg».proof.Proof.Gen.Kernel
import proofs.«109636_j69595650065050_2_alg».proof.Proof.Gen.Kernel.Skeleton
import proofs.«109636_j69595650065050_2_alg».proof.Proof.Gen.Kernel.Launch
import proofs.«109636_j69595650065050_2_alg».proof.Proof.Gen.Kernel.Points
import proofs.«109636_j69595650065050_2_alg».proof.Proof.Gen.Kernel.Frame
import proofs.«109636_j69595650065050_2_alg».proof.Proof.Gen.KernelIdeal
import proofs.«109636_j69595650065050_2_alg».proof.Proof.Gen.KernelIdeal.Skeleton
import proofs.«109636_j69595650065050_2_alg».proof.Proof.Gen.KernelIdeal.Launch
import proofs.«109636_j69595650065050_2_alg».proof.Proof.Gen.KernelIdeal.Points
import proofs.«109636_j69595650065050_2_alg».proof.Proof.Gen.KernelIdeal.Frame
import proofs.«109636_j69595650065050_2_alg».proof.Proof.Gen.ReferenceIdeal
import proofs.«109636_j69595650065050_2_alg».proof.Proof.Gen.Pre_finite_inputs
import proofs.«109636_j69595650065050_2_alg».proof.Proof.RefRun
import proofs.«109636_j69595650065050_2_alg».proof.Proof.RefValue
import proofs.«109636_j69595650065050_2_alg».proof.Proof.KernelRun
import proofs.«109636_j69595650065050_2_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does the kernel program read on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference program's frame is its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- From memories that agree on the six arguments both programs end with the same result array: the kernel program's
    is `kernelOut` of the arguments, the reference program's `refOut`, and the two are one function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.res_eq, (hagree c).1, (hagree c).2.1, (hagree c).2.2.1, (hagree c).2.2.2.1,
    (hagree c).2.2.2.2.1, (hagree c).2.2.2.2.2]
  exact (Cert.Gcn.kernelOut_eq_refOut _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
